-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1536 : Shape := ⟨2, ![50000, 1536]⟩
abbrev S4096x1536 : Shape := ⟨2, ![4096, 1536]⟩
abbrev S65536 : Shape := ⟨1, ![65536]⟩
abbrev S1536x1536 : Shape := ⟨2, ![1536, 1536]⟩
abbrev S1536 : Shape := ⟨1, ![1536]⟩
abbrev S3072x512 : Shape := ⟨2, ![3072, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x1536 : S_.BroadcastsInDim S50000x1536 (![] : Fin 0 → Fin S50000x1536.rank)
  reducesTo_S50000x1536_S_d0_1 : S50000x1536.ReducesTo [0, 1] S_
  h_S_ : 0 < S_.numel
  bcast_S_S4096x1536 : S_.BroadcastsInDim S4096x1536 (![] : Fin 0 → Fin S4096x1536.rank)
  reducesTo_S4096x1536_S_d0_1 : S4096x1536.ReducesTo [0, 1] S_
  bcast_S_S1536x1536 : S_.BroadcastsInDim S1536x1536 (![] : Fin 0 → Fin S1536x1536.rank)
  reducesTo_S1536x1536_S_d0_1 : S1536x1536.ReducesTo [0, 1] S_
  bcast_S_S1536 : S_.BroadcastsInDim S1536 (![] : Fin 0 → Fin S1536.rank)
  reducesTo_S1536_S_d0 : S1536.ReducesTo [0] S_
  bcast_S_S3072x512 : S_.BroadcastsInDim S3072x512 (![] : Fin 0 → Fin S3072x512.rank)
  reducesTo_S3072x512_S_d0_1 : S3072x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S64 .f32) (main_arg19 : FVec F S64x1 .f32) (main_arg20 : FVec F S1 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg19
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg20
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg15 : FVec F S512x256 .f32) (main_arg16 : FVec F S256 .f32) (main_arg17 : FVec F S256x64 .f32) (main_arg18 : FVec F S64 .f32) (main_arg19 : FVec F S64x1 .f32) (main_arg20 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x256 .f32 := Host.absf main_arg15
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x64 .f32 := Host.absf main_arg17
  let main_cst_24 : FVec F S_ .f32 := constant S_ .f32 0x7F800000#32
  let main_v65 : FVec F S256x64 .f32 := broadcastInDim S256x64 ![] bcast_S_S256x64 main_cst_24
  let main_v66 : IVec S256x64 1 := cmpf .olt main_v64 main_v65
  let main_c_25 : IVec S_ 1 := constantI S_ 1 1#1
  let main_v67 : IVec S_ 1 := (fun x v => Host.reduce IntOp.andi x v reducesTo_S256x64_S_d0_1 h_S_) main_v66 main_c_25
  fn_part4 (F := F) main_arg18 main_arg19 main_arg20 main_v63 main_v67

def fn_part2 {F : FTy → Type} [FloatOps F] (main_arg11 : FVec F S1536 .f32) (main_arg12 : FVec F S1536x1536 .f32) (main_arg13 : FVec F S3072x512 .f32) (main_arg14 : FVec F S512 .f32) (main_arg15 : FVec F S512x256 .f32) (main_arg16 : FVec F S256 .f32) (main_arg17 : FVec F S256x64 .f32) (main_arg18 : FVec F S64 .f32) (main_arg19 : FVec F S64x1 .f32) (main_arg20 : FVec F S1 .f32) (main_v33 : IVec S_ 1) : IVec S_ 1 :=
  let main_v34 : FVec F S1536 .f32 := Host.absf main_arg11
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S1536x1536 .f32 := Host.absf main_arg12
  let main_cst_14 : FVec F S_ .f32 := constant S_ .f32 0x7F800000#32
  let main_v40 : FVec F S1536x1536 .f32 := broadcastInDim S1536x1536 ![] bcast_S_S1536x1536 main_cst_14
  let main_v41 : IVec S1536x1536 1 := cmpf .olt main_v39 main_v40
  let main_c_15 : IVec S_ 1 := constantI S_ 1 1#1
  let main_v42 : IVec S_ 1 := (fun x v => Host.reduce IntOp.andi x v reducesTo_S1536x1536_S_d0_1 h_S_) main_v41 main_c_15
  let main_v43 : IVec S_ 1 := andi main_v38 main_v42
  let main_v44 : FVec F S3072x512 .f32 := Host.absf main_arg13
  let main_cst_16 : FVec F S_ .f32 := constant S_ .f32 0x7F800000#32
  let main_v45 : FVec F S3072x512 .f32 := broadcastInDim S3072x512 ![] bcast_S_S3072x512 main_cst_16
  let main_v46 : IVec S3072x512 1 := cmpf .olt main_v44 main_v45
  let main_c_17 : IVec S_ 1 := constantI S_ 1 1#1
  let main_v47 : IVec S_ 1 := (fun x v => Host.reduce IntOp.andi x v reducesTo_S3072x512_S_d0_1 h_S_) main_v46 main_c_17
  let main_v48 : IVec S_ 1 := andi main_v43 main_v47
  let main_v49 : FVec F S512 .f32 := Host.absf main_arg14
  let main_cst_18 : FVec F S_ .f32 := constant S_ .f32 0x7F800000#32
  let main_v50 : FVec F S512 .f32 := broadcastInDim S512 ![] bcast_S_S512 main_cst_18
  fn_part3 (F := F) main_arg15 main_arg16 main_arg17 main_arg18 main_arg19 main_arg20 main_v48 main_v49 main_v50

def fn_part1 {F : FTy → Type} [FloatOps F] (main_arg8 : FVec F S1536 .f32) (main_arg9 : FVec F S1536x1536 .f32) (main_arg10 : FVec F S1536x1536 .f32) (main_arg11 : FVec F S1536 .f32) (main_arg12 : FVec F S1536x1536 .f32) (main_arg13 : FVec F S3072x512 .f32) (main_arg14 : FVec F S512 .f32) (main_arg15 : FVec F S512x256 .f32) (main_arg16 : FVec F S256 .f32) (main_arg17 : FVec F S256x64 .f32) (main_arg18 : FVec F S64 .f32) (main_arg19 : FVec F S64x1 .f32) (main_arg20 : FVec F S1 .f32) (main_v13 : IVec S_ 1) (main_v16 : IVec S1536x1536 1) : IVec S_ 1 :=
  let main_c_5 : IVec S_ 1 := constantI S_ 1 1#1
  let main_v17 : IVec S_ 1 := (fun x v => Host.reduce IntOp.andi x v reducesTo_S1536x1536_S_d0_1 h_S_) main_v16 main_c_5
  let main_v18 : IVec S_ 1 := andi main_v13 main_v17
  let main_v19 : FVec F S1536 .f32 := Host.absf main_arg8
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536x1536 .f32 := Host.absf main_arg9
  let main_cst_8 : FVec F S_ .f32 := constant S_ .f32 0x7F800000#32
  let main_v25 : FVec F S1536x1536 .f32 := broadcastInDim S1536x1536 ![] bcast_S_S1536x1536 main_cst_8
  let main_v26 : IVec S1536x1536 1 := cmpf .olt main_v24 main_v25
  let main_c_9 : IVec S_ 1 := constantI S_ 1 1#1
  let main_v27 : IVec S_ 1 := (fun x v => Host.reduce IntOp.andi x v reducesTo_S1536x1536_S_d0_1 h_S_) main_v26 main_c_9
  let main_v28 : IVec S_ 1 := andi main_v23 main_v27
  let main_v29 : FVec F S1536x1536 .f32 := Host.absf main_arg10
  let main_cst_10 : FVec F S_ .f32 := constant S_ .f32 0x7F800000#32
  let main_v30 : FVec F S1536x1536 .f32 := broadcastInDim S1536x1536 ![] bcast_S_S1536x1536 main_cst_10
  let main_v31 : IVec S1536x1536 1 := cmpf .olt main_v29 main_v30
  let main_c_11 : IVec S_ 1 := constantI S_ 1 1#1
  let main_v32 : IVec S_ 1 := (fun x v => Host.reduce IntOp.andi x v reducesTo_S1536x1536_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : FVec F S50000x1536 .f32) (main_arg1 : FVec F S4096x1536 .f32) (main_arg2 : FVec F S4096x1536 .f32) (main_arg3 : IVec S65536 32) (main_arg4 : IVec S65536 32) (main_arg5 : IVec S65536 32) (main_arg6 : IVec S65536 32) (main_arg7 : FVec F S1536x1536 .f32) (main_arg8 : FVec F S1536 .f32) (main_arg9 : FVec F S1536x1536 .f32) (main_arg10 : FVec F S1536x1536 .f32) (main_arg11 : FVec F S1536 .f32) (main_arg12 : FVec F S1536x1536 .f32) (main_arg13 : FVec F S3072x512 .f32) (main_arg14 : FVec F S512 .f32) (main_arg15 : FVec F S512x256 .f32) (main_arg16 : FVec F S256 .f32) (main_arg17 : FVec F S256x64 .f32) (main_arg18 : FVec F S64 .f32) (main_arg19 : FVec F S64x1 .f32) (main_arg20 : FVec F S1 .f32) : IVec S_ 1 :=
  let main_v0 : FVec F S50000x1536 .f32 := Host.absf main_arg0
  let main_cst : FVec F S_ .f32 := constant S_ .f32 0x7F800000#32
  let main_v1 : FVec F S50000x1536 .f32 := broadcastInDim S50000x1536 ![] bcast_S_S50000x1536 main_cst
  let main_v2 : IVec S50000x1536 1 := cmpf .olt main_v0 main_v1
  let main_c : IVec S_ 1 := constantI S_ 1 1#1
  let main_v3 : IVec S_ 1 := (fun x v => Host.reduce IntOp.andi x v reducesTo_S50000x1536_S_d0_1 h_S_) main_v2 main_c
  let main_v4 : FVec F S4096x1536 .f32 := Host.absf main_arg1
  let main_cst_0 : FVec F S_ .f32 := constant S_ .f32 0x7F800000#32
  let main_v5 : FVec F S4096x1536 .f32 := broadcastInDim S4096x1536 ![] bcast_S_S4096x1536 main_cst_0
  let main_v6 : IVec S4096x1536 1 := cmpf .olt main_v4 main_v5
  let main_c_1 : IVec S_ 1 := constantI S_ 1 1#1
  let main_v7 : IVec S_ 1 := (fun x v => Host.reduce IntOp.andi x v reducesTo_S4096x1536_S_d0_1 h_S_) main_v6 main_c_1
  let main_v8 : IVec S_ 1 := andi main_v3 main_v7
  let main_v9 : FVec F S4096x1536 .f32 := Host.absf main_arg2
  let main_cst_2 : FVec F S_ .f32 := constant S_ .f32 0x7F800000#32
  let main_v10 : FVec F S4096x1536 .f32 := broadcastInDim S4096x1536 ![] bcast_S_S4096x1536 main_cst_2
  let main_v11 : IVec S4096x1536 1 := cmpf .olt main_v9 main_v10
  let main_c_3 : IVec S_ 1 := constantI S_ 1 1#1
  let main_v12 : IVec S_ 1 := (fun x v => Host.reduce IntOp.andi x v reducesTo_S4096x1536_S_d0_1 h_S_) main_v11 main_c_3
  let main_v13 : IVec S_ 1 := andi main_v8 main_v12
  let main_v14 : FVec F S1536x1536 .f32 := Host.absf main_arg7
  let main_cst_4 : FVec F S_ .f32 := constant S_ .f32 0x7F800000#32
  let main_v15 : FVec F S1536x1536 .f32 := broadcastInDim S1536x1536 ![] bcast_S_S1536x1536 main_cst_4
  let main_v16 : IVec S1536x1536 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S50000x1536 : Shape := ⟨2, ![50000, 1536]⟩
abbrev S4096x1536 : Shape := ⟨2, ![4096, 1536]⟩
abbrev S65536 : Shape := ⟨1, ![65536]⟩
abbrev S1536x1536 : Shape := ⟨2, ![1536, 1536]⟩
abbrev S1536 : Shape := ⟨1, ![1536]⟩
abbrev S3072x512 : Shape := ⟨2, ![3072, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S65536x1 : Shape := ⟨2, ![65536, 1]⟩
abbrev S65536x1536 : Shape := ⟨2, ![65536, 1536]⟩
abbrev S1x1536 : Shape := ⟨2, ![1, 1536]⟩
abbrev S1536x512 : Shape := ⟨2, ![1536, 512]⟩
abbrev S1x512 : Shape := ⟨2, ![1, 512]⟩
abbrev S1x256 : Shape := ⟨2, ![1, 256]⟩
abbrev S1x64 : Shape := ⟨2, ![1, 64]⟩
abbrev S1x1 : Shape := ⟨2, ![1, 1]⟩
abbrev S4096x1 : Shape := ⟨2, ![4096, 1]⟩
abbrev S128x1536 : Shape := ⟨2, ![128, 1536]⟩
abbrev S128x1 : Shape := ⟨2, ![128, 1]⟩
abbrev S128x512 : Shape := ⟨2, ![128, 512]⟩
abbrev S128x256 : Shape := ⟨2, ![128, 256]⟩
abbrev S128x64 : Shape := ⟨2, ![128, 64]⟩
abbrev S4096 : Shape := ⟨1, ![4096]⟩

abbrev nBuf : Space → Nat
  | .hbm => 70
  | .vmem => 25
  | .smem => 0
  | _ => 0

abbrev bufTy : (tb : Table) → Fin (tcTables nBuf tb) → BufTy
  | .hbm, ⟨0, _⟩ => ⟨S50000x1536, .f32⟩
  | .hbm, ⟨1, _⟩ => ⟨S4096x1536, .f32⟩
  | .hbm, ⟨2, _⟩ => ⟨S4096x1536, .f32⟩
  | .hbm, ⟨3, _⟩ => ⟨S65536, .i32⟩
  | .hbm, ⟨4, _⟩ => ⟨S65536, .i32⟩
  | .hbm, ⟨5, _⟩ => ⟨S65536, .i32⟩
  | .hbm, ⟨6, _⟩ => ⟨S65536, .i32⟩
  | .hbm, ⟨7, _⟩ => ⟨S1536x1536, .f32⟩
  | .hbm, ⟨8, _⟩ => ⟨S1536, .f32⟩
  | .hbm, ⟨9, _⟩ => ⟨S1536x1536, .f32⟩
  | .hbm, ⟨10, _⟩ => ⟨S1536x1536, .f32⟩
  | .hbm, ⟨11, _⟩ => ⟨S1536, .f32⟩
  | .hbm, ⟨12, _⟩ => ⟨S1536x1536, .f32⟩
  | .hbm, ⟨13, _⟩ => ⟨S3072x512, .f32⟩
  | .hbm, ⟨14, _⟩ => ⟨S512, .f32⟩
  | .hbm, ⟨15, _⟩ => ⟨S512x256, .f32⟩
  | .hbm, ⟨16, _⟩ => ⟨S256, .f32⟩
  | .hbm, ⟨17, _⟩ => ⟨S256x64, .f32⟩
  | .hbm, ⟨18, _⟩ => ⟨S64, .f32⟩
  | .hbm, ⟨19, _⟩ => ⟨S64x1, .f32⟩
  | .hbm, ⟨20, _⟩ => ⟨S1, .f32⟩
  | .hbm, ⟨21, _⟩ => ⟨S_, .i32⟩
  | .hbm, ⟨22, _⟩ => ⟨S65536, .i32⟩
  | .hbm, ⟨23, _⟩ => ⟨S65536, .i1⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S65536, .i32⟩
  | .hbm, ⟨28, _⟩ => ⟨S65536x1, .i32⟩
  | .hbm, ⟨29, _⟩ => ⟨S65536x1536, .f32⟩
  | .hbm, ⟨30, _⟩ => ⟨S_, .f32⟩
  | .hbm, ⟨31, _⟩ => ⟨S4096x1536, .f32⟩
  | .hbm, ⟨32, _⟩ => ⟨S65536x1, .i32⟩
  | .hbm, ⟨33, _⟩ => ⟨S4096x1536, .f32⟩
  | .hbm, ⟨34, _⟩ => ⟨S4096x1536, .bf16⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S65536x1536, .f32⟩
  | .hbm, ⟨44, _⟩ => ⟨S_, .f32⟩
  | .hbm, ⟨45, _⟩ => ⟨S4096x1536, .f32⟩
  | .hbm, ⟨46, _⟩ => ⟨S65536x1, .i32⟩
  | .hbm, ⟨47, _⟩ => ⟨S4096x1536, .f32⟩
  | .hbm, ⟨48, _⟩ => ⟨S4096x1536, .bf16⟩
  | .hbm, ⟨49, _⟩ => ⟨S4096x1536, .bf16⟩
  | .hbm, ⟨50, _⟩ => ⟨S4096x1536, .bf16⟩
  | .hbm, ⟨51, _⟩ => ⟨S1536x1536, .bf16⟩
  | .hbm, ⟨52, _⟩ => ⟨S1536x1536, .bf16⟩
  | .hbm, ⟨53, _⟩ => ⟨S1536x1536, .bf16⟩
  | .hbm, ⟨54, _⟩ => ⟨S1536x1536, .bf16⟩
  | .hbm, ⟨55, _⟩ => ⟨S1x1536, .f32⟩
  | .hbm, ⟨56, _⟩ => ⟨S1x1536, .f32⟩
  | .hbm, ⟨57, _⟩ => ⟨S1536x512, .f32⟩
  | .hbm, ⟨58, _⟩ => ⟨S1536x512, .bf16⟩
  | .hbm, ⟨59, _⟩ => ⟨S1536x512, .f32⟩
  | .hbm, ⟨60, _⟩ => ⟨S1536x512, .bf16⟩
  | .hbm, ⟨61, _⟩ => ⟨S512x256, .bf16⟩
  | .hbm, ⟨62, _⟩ => ⟨S256x64, .bf16⟩
  | .hbm, ⟨63, _⟩ => ⟨S64x1, .bf16⟩
  | .hbm, ⟨64, _⟩ => ⟨S1x512, .f32⟩
  | .hbm, ⟨65, _⟩ => ⟨S1x256, .f32⟩
  | .hbm, ⟨66, _⟩ => ⟨S1x64, .f32⟩
  | .hbm, ⟨67, _⟩ => ⟨S1x1, .f32⟩
  | .hbm, ⟨68, _⟩ => ⟨S4096x1, .f32⟩
  | .hbm, ⟨69, _⟩ => ⟨S4096, .f32⟩
  | .local _ .vmem, ⟨0, _⟩ => ⟨S128x1536, .bf16⟩
  | .local _ .vmem, ⟨1, _⟩ => ⟨S128x1536, .bf16⟩
  | .local _ .vmem, ⟨2, _⟩ => ⟨S128x1536, .bf16⟩
  | .local _ .vmem, ⟨3, _⟩ => ⟨S128x1536, .bf16⟩
  | .local _ .vmem, ⟨4, _⟩ => ⟨S1536x1536, .bf16⟩
  | .local _ .vmem, ⟨5, _⟩ => ⟨S1x1536, .f32⟩
  | .local _ .vmem, ⟨6, _⟩ => ⟨S1536x1536, .bf16⟩
  | .local _ .vmem, ⟨7, _⟩ => ⟨S128x1536, .bf16⟩
  | .local _ .vmem, ⟨8, _⟩ => ⟨S128x1536, .bf16⟩
  | .local _ .vmem, ⟨9, _⟩ => ⟨S128x1536, .bf16⟩
  | .local _ .vmem, ⟨10, _⟩ => ⟨S128x1536, .bf16⟩
  | .local _ .vmem, ⟨11, _⟩ => ⟨S1536x1536, .bf16⟩
  | .local _ .vmem, ⟨12, _⟩ => ⟨S1x1536, .f32⟩
  | .local _ .vmem, ⟨13, _⟩ => ⟨S1536x1536, .bf16⟩
  | .local _ .vmem, ⟨14, _⟩ => ⟨S1536x512, .bf16⟩
  | .local _ .vmem, ⟨15, _⟩ => ⟨S1536x512, .bf16⟩
  | .local _ .vmem, ⟨16, _⟩ => ⟨S1x512, .f32⟩
  | .local _ .vmem, ⟨17, _⟩ => ⟨S512x256, .bf16⟩
  | .local _ .vmem, ⟨18, _⟩ => ⟨S1x256, .f32⟩
  | .local _ .vmem, ⟨19, _⟩ => ⟨S256x64, .bf16⟩
  | .local _ .vmem, ⟨20, _⟩ => ⟨S1x64, .f32⟩
  | .local _ .vmem, ⟨21, _⟩ => ⟨S64x1, .bf16⟩
  | .local _ .vmem, ⟨22, _⟩ => ⟨S1x1, .f32⟩
  | .local _ .vmem, ⟨23, _⟩ => ⟨S128x1, .f32⟩
  | .local _ .vmem, ⟨24, _⟩ => ⟨S128x1, .f32⟩
  | _, _ => ⟨S50000x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x1 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S128x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S4096x1536 : S_.BroadcastsInDim S4096x1536 (![] : Fin 0 → Fin S4096x1536.rank)
  bitsLt_bf16_f32 : FTy.bits .bf16 < FTy.bits .f32
  shapeCasts_S1536_S1x1536 : S1536.ShapeCasts S1x1536
  slices_S3072x512_S1536x512_0_0 : S3072x512.Slices ![0, 0] S1536x512
  slices_S3072x512_S1536x512_1536_0 : S3072x512.Slices ![1536, 0] S1536x512
  shapeCasts_S512_S1x512 : S512.ShapeCasts S1x512
  shapeCasts_S256_S1x256 : S256.ShapeCasts S1x256
  shapeCasts_S64_S1x64 : S64.ShapeCasts S1x64
  shapeCasts_S1_S1x1 : S1.ShapeCasts S1x1
  inb_S128x1536_S128x1536_0_0 : ∀ a, (![0, 0] : Fin 2 → Nat) a + S128x1536.size a ≤ S128x1536.size a
  h_S128x1536 : 0 < S128x1536.numel
  shapeCasts_S128x1536_S128x1536 : S128x1536.ShapeCasts S128x1536
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S128x1536 : S1x1536.Broadcasts S128x1536
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  shapeCasts_S4096x1_S4096 : S4096x1.ShapeCasts S4096
  gather_S50000x1536_S65536x1_S65536x1536_1_0_n_n_0_1_11536_wf : GatherDims.WF S50000x1536 S65536x1 S65536x1536 [1] [0] [] [0] [] 1 ![1, 1536]
  scatter_S4096x1536_S65536x1_S65536x1536_1_0_0_1_wf : ScatterDims.WF S4096x1536 S65536x1 S65536x1536 [1] [0] [0] 1
  dot_S128x1536_S1536x1536_S128x1536_1_0_0_1_n_n_wf : DotDims.WF S128x1536 S1536x1536 S128x1536 [1] [0] [0] [1] [] []
  dot_S128x1536_S1536x512_S128x512_1_0_0_1_n_n_wf : DotDims.WF S128x1536 S1536x512 S128x512 [1] [0] [0] [1] [] []
  dot_S128x512_S512x256_S128x256_1_0_0_1_n_n_wf : DotDims.WF S128x512 S512x256 S128x256 [1] [0] [0] [1] [] []
  dot_S128x256_S256x64_S128x64_1_0_0_1_n_n_wf : DotDims.WF S128x256 S256x64 S128x64 [1] [0] [0] [1] [] []
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1536.size a ≤ S4096x1536.size a
  hwx0_0 : ∀ i : grid0.Coords, EltTy.bits .bf16 = 32 ∨ (Rect.block (s := S4096x1536) S128x1536.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1536.size a ≤ S4096x1536.size a
  hwx0_1 : ∀ i : grid0.Coords, EltTy.bits .bf16 = 32 ∨ (Rect.block (s := S4096x1536) S128x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x1536.size a ≤ S1536x1536.size a
  hwx0_2 : ∀ i : grid0.Coords, EltTy.bits .bf16 = 32 ∨ (Rect.block (s := S1536x1536) S1536x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x1536.size a ≤ S1536x1536.size a
  hwx0_4 : ∀ i : grid0.Coords, EltTy.bits .bf16 = 32 ∨ (Rect.block (s := S1536x1536) S1536x1536.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1536.size a ≤ S4096x1536.size a
  hwx0_5 : ∀ i : grid0.Coords, EltTy.bits .bf16 = 32 ∨ (Rect.block (s := S4096x1536) S128x1536.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1536.size a ≤ S4096x1536.size a
  hwx0_6 : ∀ i : grid0.Coords, EltTy.bits .bf16 = 32 ∨ (Rect.block (s := S4096x1536) S128x1536.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536x1536.size a ≤ S1536x1536.size a
  hwx0_7 : ∀ i : grid0.Coords, EltTy.bits .bf16 = 32 ∨ (Rect.block (s := S1536x1536) S1536x1536.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1536.size a ≤ S1x1536.size a
  hwx0_8 : ∀ i : grid0.Coords, EltTy.bits .f32 = 32 ∨ (Rect.block (s := S1x1536) S1x1536.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1536x1536.size a ≤ S1536x1536.size a
  hwx0_9 : ∀ i : grid0.Coords, EltTy.bits .bf16 = 32 ∨ (Rect.block (s := S1536x1536) S1536x1536.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1536x512.size a ≤ S1536x512.size a
  hwx0_10 : ∀ i : grid0.Coords, EltTy.bits .bf16 = 32 ∨ (Rect.block (s := S1536x512) S1536x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1536x512.size a ≤ S1536x512.size a
  hwx0_11 : ∀ i : grid0.Coords, EltTy.bits .bf16 = 32 ∨ (Rect.block (s := S1536x512) S1536x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x256.size a ≤ S512x256.size a
  hwx0_13 : ∀ i : grid0.Coords, EltTy.bits .bf16 = 32 ∨ (Rect.block (s := S512x256) S512x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x64.size a ≤ S256x64.size a
  hwx0_15 : ∀ i : grid0.Coords, EltTy.bits .bf16 = 32 ∨ (Rect.block (s := S256x64) S256x64.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x1.size a ≤ S64x1.size a
  hwx0_17 : ∀ i : grid0.Coords, EltTy.bits .bf16 = 32 ∨ (Rect.block (s := S64x1) S64x1.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1.size a ≤ S1x1.size a
  hwx0_18 : ∀ i : grid0.Coords, EltTy.bits .f32 = 32 ∨ (Rect.block (s := S1x1) S1x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S128x1.size a ≤ S4096x1.size a
  hwx0_19 : ∀ i : grid0.Coords, EltTy.bits .f32 = 32 ∨ (Rect.block (s := S4096x1) S128x1.size (cc0_transform_19 i) (hinb0_19 i)).WholeWords (EltTy.packing .f32)

variable [Facts₀]

def gather_S50000x1536_S65536x1_S65536x1536_1_0_n_n_0_1_11536 : GatherDims S50000x1536 S65536x1 S65536x1536 where
  offsetDims := [1]
  collapsedSliceDims := [0]
  operandBatchingDims := []
  startIndicesBatchingDims := []
  startIndexMap := [0]
  indexVectorDim := 1
  sliceSizes := ![1, 1536]
  wf := gather_S50000x1536_S65536x1_S65536x1536_1_0_n_n_0_1_11536_wf
def scatter_S4096x1536_S65536x1_S65536x1536_1_0_0_1 : ScatterDims S4096x1536 S65536x1 S65536x1536 where
  updateWindowDims := [1]
  insertedWindowDims := [0]
  scatterDimsToOperandDims := [0]
  indexVectorDim := 1
  wf := scatter_S4096x1536_S65536x1_S65536x1536_1_0_0_1_wf
def dot_S128x1536_S1536x1536_S128x1536_1_0_0_1_n_n : DotDims S128x1536 S1536x1536 S128x1536 where
  lhsContracting := [1]
  rhsContracting := [0]
  lhsNonContracting := [0]
  rhsNonContracting := [1]
  lhsBatch := []
  rhsBatch := []
  wf := dot_S128x1536_S1536x1536_S128x1536_1_0_0_1_n_n_wf
def dot_S128x1536_S1536x512_S128x512_1_0_0_1_n_n : DotDims S128x1536 S1536x512 S128x512 where
  lhsContracting := [1]
  rhsContracting := [0]
  lhsNonContracting := [0]
  rhsNonContracting := [1]
  lhsBatch := []
  rhsBatch := []
  wf := dot_S128x1536_S1536x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_v10) S128x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1536x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1536x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x1536.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23) S128x1536.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1536x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1536x1536.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S1536x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33) S1536x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v34) S512x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v38) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v35) S256x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v39) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v36) S64x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v40) S1x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v41) S128x1.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S50000x1536 : Shape := ⟨2, ![50000, 1536]⟩
abbrev S4096x1536 : Shape := ⟨2, ![4096, 1536]⟩
abbrev S65536 : Shape := ⟨1, ![65536]⟩
abbrev S1536x1536 : Shape := ⟨2, ![1536, 1536]⟩
abbrev S1536 : Shape := ⟨1, ![1536]⟩
abbrev S3072x512 : Shape := ⟨2, ![3072, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S65536x1 : Shape := ⟨2, ![65536, 1]⟩
abbrev S65536x1536 : Shape := ⟨2, ![65536, 1536]⟩
abbrev S1x1536 : Shape := ⟨2, ![1, 1536]⟩
abbrev S4096x3072 : Shape := ⟨2, ![4096, 3072]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x64 : Shape := ⟨2, ![4096, 64]⟩
abbrev S1x64 : Shape := ⟨2, ![1, 64]⟩
abbrev S4096x1 : Shape := ⟨2, ![4096, 1]⟩
abbrev S1x1 : Shape := ⟨2, ![1, 1]⟩
abbrev S4096 : Shape := ⟨1, ![4096]⟩

abbrev nBuf : Space → Nat
  | .hbm => 92
  | .vmem => 0
  | .smem => 0
  | _ => 0

abbrev bufTy : (tb : Table) → Fin (tcTables nBuf tb) → BufTy
  | .hbm, ⟨0, _⟩ => ⟨S50000x1536, .f32⟩
  | .hbm, ⟨1, _⟩ => ⟨S4096x1536, .f32⟩
  | .hbm, ⟨2, _⟩ => ⟨S4096x1536, .f32⟩
  | .hbm, ⟨3, _⟩ => ⟨S65536, .i32⟩
  | .hbm, ⟨4, _⟩ => ⟨S65536, .i32⟩
  | .hbm, ⟨5, _⟩ => ⟨S65536, .i32⟩
  | .hbm, ⟨6, _⟩ => ⟨S65536, .i32⟩
  | .hbm, ⟨7, _⟩ => ⟨S1536x1536, .f32⟩
  | .hbm, ⟨8, _⟩ => ⟨S1536, .f32⟩
  | .hbm, ⟨9, _⟩ => ⟨S1536x1536, .f32⟩
  | .hbm, ⟨10, _⟩ => ⟨S1536x1536, .f32⟩
  | .hbm, ⟨11, _⟩ => ⟨S1536, .f32⟩
  | .hbm, ⟨12, _⟩ => ⟨S1536x1536, .f32⟩
  | .hbm, ⟨13, _⟩ => ⟨S3072x512, .f32⟩
  | .hbm, ⟨14, _⟩ => ⟨S512, .f32⟩
  | .hbm, ⟨15, _⟩ => ⟨S512x256, .f32⟩
  | .hbm, ⟨16, _⟩ => ⟨S256, .f32⟩
  | .hbm, ⟨17, _⟩ => ⟨S256x64, .f32⟩
  | .hbm, ⟨18, _⟩ => ⟨S64, .f32⟩
  | .hbm, ⟨19, _⟩ => ⟨S64x1, .f32⟩
  | .hbm, ⟨20, _⟩ => ⟨S1, .f32⟩
  | .hbm, ⟨21, _⟩ => ⟨S_, .i32⟩
  | .hbm, ⟨22, _⟩ => ⟨S65536, .i32⟩
  | .hbm, ⟨23, _⟩ => ⟨S65536, .i1⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S65536, .i32⟩
  | .hbm, ⟨28, _⟩ => ⟨S65536x1, .i32⟩
  | .hbm, ⟨29, _⟩ => ⟨S65536x1536, .f32⟩
  | .hbm, ⟨30, _⟩ => ⟨S_, .f32⟩
  | .hbm, ⟨31, _⟩ => ⟨S4096x1536, .f32⟩
  | .hbm, ⟨32, _⟩ => ⟨S65536x1, .i32⟩
  | .hbm, ⟨33, _⟩ => ⟨S4096x1536, .f32⟩
  | .hbm, ⟨34, _⟩ => ⟨S4096x1536, .f32⟩
  | .hbm, ⟨35, _⟩ => ⟨S1x1536, .f32⟩
  | .hbm, ⟨36, _⟩ => ⟨S4096x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S4096x1536, .f32⟩
  | .hbm, ⟨42, _⟩ => ⟨S4096x1536, .f32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S65536x1, .i32⟩
  | .hbm, ⟨51, _⟩ => ⟨S65536x1536, .f32⟩
  | .hbm, ⟨52, _⟩ => ⟨S_, .f32⟩
  | .hbm, ⟨53, _⟩ => ⟨S4096x1536, .f32⟩
  | .hbm, ⟨54, _⟩ => ⟨S65536x1, .i32⟩
  | .hbm, ⟨55, _⟩ => ⟨S4096x1536, .f32⟩
  | .hbm, ⟨56, _⟩ => ⟨S4096x1536, .f32⟩
  | .hbm, ⟨57, _⟩ => ⟨S1x1536, .f32⟩
  | .hbm, ⟨58, _⟩ => ⟨S4096x1536, .f32⟩
  | .hbm, ⟨59, _⟩ => ⟨S4096x1536, .f32⟩
  | .hbm, ⟨60, _⟩ => ⟨S4096x1536, .f32⟩
  | .hbm, ⟨61, _⟩ => ⟨S4096x1536, .f32⟩
  | .hbm, ⟨62, _⟩ => ⟨S_, .f32⟩
  | .hbm, ⟨63, _⟩ => ⟨S4096x1536, .f32⟩
  | .hbm, ⟨64, _⟩ => ⟨S4096x1536, .f32⟩
  | .hbm, ⟨65, _⟩ => ⟨S4096x3072, .f32⟩
  | .hbm, ⟨66, _⟩ => ⟨S4096x512, .f32⟩
  | .hbm, ⟨67, _⟩ => ⟨S1x512, .f32⟩
  | .hbm, ⟨68, _⟩ => ⟨S4096x512, .f32⟩
  | .hbm, ⟨69, _⟩ => ⟨S4096x512, .f32⟩
  | .hbm, ⟨70, _⟩ => ⟨S_, .f32⟩
  | .hbm, ⟨71, _⟩ => ⟨S4096x512, .f32⟩
  | .hbm, ⟨72, _⟩ => ⟨S4096x512, .f32⟩
  | .hbm, ⟨73, _⟩ => ⟨S4096x256, .f32⟩
  | .hbm, ⟨74, _⟩ => ⟨S1x256, .f32⟩
  | .hbm, ⟨75, _⟩ => ⟨S4096x256, .f32⟩
  | .hbm, ⟨76, _⟩ => ⟨S4096x256, .f32⟩
  | .hbm, ⟨77, _⟩ => ⟨S_, .f32⟩
  | .hbm, ⟨78, _⟩ => ⟨S4096x256, .f32⟩
  | .hbm, ⟨79, _⟩ => ⟨S4096x256, .f32⟩
  | .hbm, ⟨80, _⟩ => ⟨S4096x64, .f32⟩
  | .hbm, ⟨81, _⟩ => ⟨S1x64, .f32⟩
  | .hbm, ⟨82, _⟩ => ⟨S4096x64, .f32⟩
  | .hbm, ⟨83, _⟩ => ⟨S4096x64, .f32⟩
  | .hbm, ⟨84, _⟩ => ⟨S_, .f32⟩
  | .hbm, ⟨85, _⟩ => ⟨S4096x64, .f32⟩
  | .hbm, ⟨86, _⟩ => ⟨S4096x64, .f32⟩
  | .hbm, ⟨87, _⟩ => ⟨S4096x1, .f32⟩
  | .hbm, ⟨88, _⟩ => ⟨S1x1, .f32⟩
  | .hbm, ⟨89, _⟩ => ⟨S4096x1, .f32⟩
  | .hbm, ⟨90, _⟩ => ⟨S4096x1, .f32⟩
  | .hbm, ⟨91, _⟩ => ⟨S4096, .f32⟩
  | _, _ => ⟨S50000x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_call0_cst : Ref sig .tc := ⟨.hbm, 40, rfl⟩
abbrev main_call0_v0 : Ref sig .tc := ⟨.hbm, 41, rfl⟩
abbrev main_v16 : Ref sig .tc := ⟨.hbm, 42, rfl⟩
abbrev main_c_1 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call1_cst : Ref sig .tc := ⟨.hbm, 62, rfl⟩
abbrev main_call1_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call2_cst : Ref sig .tc := ⟨.hbm, 70, rfl⟩
abbrev main_call2_v0 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call3_cst : Ref sig .tc := ⟨.hbm, 77, rfl⟩
abbrev main_call3_v0 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call4_cst : Ref sig .tc := ⟨.hbm, 84, rfl⟩
abbrev main_call4_v0 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S4096x1536 : S_.BroadcastsInDim S4096x1536 (![] : Fin 0 → Fin S4096x1536.rank)
  bcast_S1536_S1x1536_1 : S1536.BroadcastsInDim S1x1536 (![1] : Fin 1 → Fin S1x1536.rank)
  bcast_S1x1536_S4096x1536_0_1 : S1x1536.BroadcastsInDim S4096x1536 (![0, 1] : Fin 2 → Fin S4096x1536.rank)
  concatenates_S4096x1536_S4096x1536_S4096x3072_d1 : Shape.Concatenates [S4096x1536, S4096x1536] S4096x3072 1
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  gather_S50000x1536_S65536x1_S65536x1536_1_0_n_n_0_1_11536_wf : GatherDims.WF S50000x1536 S65536x1 S65536x1536 [1] [0] [] [0] [] 1 ![1, 1536]
  scatter_S4096x1536_S65536x1_S65536x1536_1_0_0_1_wf : ScatterDims.WF S4096x1536 S65536x1 S65536x1536 [1] [0] [0] 1
  dot_S4096x1536_S1536x1536_S4096x1536_1_0_0_1_n_n_wf : DotDims.WF S4096x1536 S1536x1536 S4096x1536 [1] [0] [0] [1] [] []
  dot_S4096x3072_S3072x512_S4096x512_1_0_0_1_n_n_wf : DotDims.WF S4096x3072 S3072x512 S4096x512 [1] [0] [0] [1] [] []
  dot_S4096x512_S512x256_S4096x256_1_0_0_1_n_n_wf : DotDims.WF S4096x512 S512x256 S4096x256 [1] [0] [0] [1] [] []
  dot_S4096x256_S256x64_S4096x64_1_0_0_1_n_n_wf : DotDims.WF S4096x256 S256x64 S4096x64 [1] [0] [0] [1] [] []
  dot_S4096x64_S64x1_S4096x1_1_0_0_1_n_n_wf : DotDims.WF S4096x64 S64x1 S4096x1 [1] [0] [0] [1] [] []

variable [Facts₀]

def gather_S50000x1536_S65536x1_S65536x1536_1_0_n_n_0_1_11536 : GatherDims S50000x1536 S65536x1 S65536x1536 where
  offsetDims := [1]
  collapsedSliceDims := [0]
  operandBatchingDims := []
  startIndicesBatchingDims := []
  startIndexMap := [0]
  indexVectorDim := 1
  sliceSizes := ![1, 1536]
  wf := gather_S50000x1536_S65536x1_S65536x1536_1_0_n_n_0_1_11536_wf
def scatter_S4096x1536_S65536x1_S65536x1536_1_0_0_1 : ScatterDims S4096x1536 S65536x1 S65536x1536 where
  updateWindowDims := [1]
  insertedWindowDims := [0]
  scatterDimsToOperandDims := [0]
  indexVectorDim := 1
  wf := scatter_S4096x1536_S65536x1_S65536x1536_1_0_0_1_wf
def dot_S4096x1536_S1536x1536_S4096x1536_1_0_0_1_n_n : DotDims S4096x1536 S1536x1536 S4096x1536 where
  lhsContracting := [1]
  rhsContracting := [0]
  lhsNonContracting := [0]
  rhsNonContracting := [1]
  lhsBatch := []
  rhsBatch := []
  wf := dot_S4096x1536_S1536x1536_S4096x1536_1_0_0_1_n_n_wf
def dot_S4096x3072_S3072x512_S4096x512_1_0_0_1_n_n : DotDims S4096x3072 S3072x512 S4096x512 where
  lhsContracting := [1]
  rhsContracting := [0]
  lhsNonContracting := [0]
  rhsNonContracting := [1]
  lhsBatch := []
  rhsBatch := []
  wf := dot_S4096x3072_S3072x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.Score.lean ====
/-
  The score of one (job, resume) pair, as a function of four rows and the weights, on the extended reals.

  Every stage of the model acts on one row at a time: a row of the output depends on the same row of each
  input and on the weights, never on another row. So the whole computation is described by what it does to
  a single row. For a row `x` of length K, a K × N weight `W` and a bias `b` of length N,

      lin x W b q          = (∑ k, x k · W k q) + b q                                  (an affine layer)
      relu z               = max z 0
      twoPre a x Wa Wx b q = (∑ k, a k · Wa k q + ∑ k, x k · Wx k q) + b q             (two blocks, one bias)
      two a x Wa Wx b q    = relu (twoPre a x Wa Wx b q)

  `two` is both a graph convolution (the aggregated neighbours against the relation weight, the node's own
  row against the root weight, one bias) and the first layer of the perceptron applied to two halves laid
  side by side (each half against its own rows of the weight).

  A graph convolution may also be bracketed as ((∑ a·Wa) + b) + ∑ x·Wx. The two bracketings agree on the
  extended reals because addition there is commutative and associative; nothing is assumed finite.
-/
import Idealize.ShloMosaic.PureOps.Ideal
import Idealize.ShloMosaic.Lib.ValueIdx

open scoped BigOperators

noncomputable section

namespace Cert.Score

open Idealize.ShloMosaic

/-- The number the programs' zero word denotes. -/
def zero : EReal := Ideal.ofBits .f32 0x00000000#32

/-- The rectifier: the larger of a number and zero. -/
def relu (z : EReal) : EReal := max z zero

/-- An affine layer on one row, at output column `q`. -/
def lin {K N : ℕ} (x : Fin K → EReal) (W : Fin K → Fin N → EReal) (b : Fin N → EReal) (q : Fin N) : EReal :=
  (∑ k, x k * W k q) + b q

/-- A rectified affine layer on one row. -/
def layer {K N : ℕ} (x : Fin K → EReal) (W : Fin K → Fin N → EReal) (b : Fin N → EReal) (q : Fin N) : EReal :=
  relu (lin x W b q)

/-- Two blocks with one bias, not yet rectified: both block sums first, then the bias. -/
def twoPre {Ka Kb N : ℕ} (a : Fin Ka → EReal) (x : Fin Kb → EReal) (Wa : Fin Ka → Fin N → EReal)
    (Wx : Fin Kb → Fin N → EReal) (b : Fin N → EReal) (q : Fin N) : EReal :=
  ((∑ k, a k * Wa k q) + (∑ k, x k * Wx k q)) + b q

/-- A rectified layer on two blocks with one bias. -/
def two {Ka Kb N : ℕ} (a : Fin Ka → EReal) (x : Fin Kb → EReal) (Wa : Fin Ka → Fin N → EReal)
    (Wx : Fin Kb → Fin N → EReal) (b : Fin N → EReal) (q : Fin N) : EReal :=
  relu (twoPre a x Wa Wx b q)

/-- The same layer bracketed the other way: the first block sum, then the bias, then the second block sum. -/
def twoBiasFirst {Ka Kb N : ℕ} (a : Fin Ka → EReal) (x : Fin Kb → EReal) (Wa : Fin Ka → Fin N → EReal)
    (Wx : Fin Kb → Fin N → EReal) (b : Fin N → EReal) (q : Fin N) : EReal :=
  relu (((∑ k, a k * Wa k q) + b q) + (∑ k, x k * Wx k q))

/-- The two bracketings agree: addition of extended reals is commutative and associative. -/
theorem twoBiasFirst_eq {Ka Kb N : ℕ} (a : Fin Ka → EReal) (x : Fin Kb → EReal) (Wa : Fin Ka → Fin N → EReal)
    (Wx : Fin Kb → Fin N → EReal) (b : Fin N → EReal) (q : Fin N) :
    twoBiasFirst a x Wa Wx b q = two a x Wa Wx b q := by
  unfold twoBiasFirst two twoPre
  rw [add_right_comm]

/-- The weights of the model, entry by entry. `W1a` and `W1b` are the upper and lower halves of the first
    perceptron weight: the rows that meet the job half and the resume half of the joined row. -/
structure Params where
  Wrj : Fin 1536 → Fin 1536 → EReal
  bj  : Fin 1536 → EReal
  Woj : Fin 1536 → Fin 1536 → EReal
  Wrr : Fin 1536 → Fin 1536 → EReal
  br  : Fin 1536 → EReal
  Wor : Fin 1536 → Fin 1536 → EReal
  W1a : Fin 1536 → Fin 512 → EReal
  W1b : Fin 1536 → Fin 512 → EReal
  b1  : Fin 512 → EReal
  W2  : Fin 512 → Fin 256 → EReal
  b2  : Fin 256 → EReal
  W3  : Fin 256 → Fin 64 → EReal
  b3  : Fin 64 → EReal
  W4  : Fin 64 → Fin 1 → EReal
  b4  : Fin 1 → EReal

/-- The job embedding of one pair: the graph convolution of its aggregated skills `aj` and its own row `xj`. -/
def hJob (P : Params) (aj xj : Fin 1536 → EReal) : Fin 1536 → EReal := two aj xj P.Wrj P.Woj P.bj

/-- The resume embedding of one pair. -/
def hRes (P : Params) (ar xr : Fin 1536 → EReal) : Fin 1536 → EReal := two ar xr P.Wrr P.Wor P.br

/-- The three hidden layers of the perceptron on the two embeddings. -/
def h1 (P : Params) (hj hr : Fin 1536 → EReal) : Fin 512 → EReal := two hj hr P.W1a P.W1b P.b1
def h2 (P : Params) (h : Fin 512 → EReal) : Fin 256 → EReal := layer h P.W2 P.b2
def h3 (P : Params) (h : Fin 256 → EReal) : Fin 64 → EReal := layer h P.W3 P.b3

/-- The score of one pair from its four rows. -/
def score (P : Params) (aj xj ar xr : Fin 1536 → EReal) (q : Fin 1) : EReal :=
  lin (h3 P (h2 P (h1 P (hJob P aj xj) (hRes P ar xr)))) P.W4 P.b4 q

end Cert.Score

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«125849_j38362647888477_2_alg».proof.Proof.LibPlainDot
import proofs.«125849_j38362647888477_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.TileValue.lean ====
/-
  What one grid step computes, entry by entry.

  A step holds 128 rows of each of the four row-tiled operands (the aggregated skills and the own rows of the job
  side and of the resume side) and every weight whole. Its stored [128, 1] block has, in row `p`, the score of
  the pair whose four rows are row `p` of those operands: each matrix product into a zero accumulator is, at
  `(p, q)`, the sum along row `p` of the left operand against column `q` of the weight; a [1, N] bias row repeated
  down the tile contributes its entry `q`; rectifying and narrowing the float format act entry by entry, and the
  narrowing is the identity on the extended reals. So row `p` of the block never looks at another row of the
  operands.
-/
import proofs.«125849_j38362647888477_2_alg».proof.Proof.Gen.KernelIdeal.Skeleton
import proofs.«125849_j38362647888477_2_alg».proof.Proof.Score
import proofs.«125849_j38362647888477_2_alg».proof.Proof.LibZeroAccDots
import Idealize.ShloMosaic.Lib.ValueIdx
import Idealize.ShloMosaic.Lib.ValueLayout
import Idealize.ShloMosaic.Lib.Pipeline.Value

open scoped BigOperators

noncomputable section

namespace Cert.KernelIdeal.Tile

open Idealize.ShloMosaic Idealize.ShloMosaic.ValueIdx Cert.KernelIdeal Cert.KernelIdeal.Gen Cert.Score

/-- The weights as one grid step holds them: the matrices entry by entry, each bias the one row of its [1, N] operand. -/
def tileParams (x2 : Vec Ideal S1536x1536 .bf16) (x3 : Vec Ideal S1x1536 .f32) (x4 : Vec Ideal S1536x1536 .bf16)
    (x7 : Vec Ideal S1536x1536 .bf16) (x8 : Vec Ideal S1x1536 .f32) (x9 : Vec Ideal S1536x1536 .bf16)
    (x10 x11 : Vec Ideal S1536x512 .bf16) (x12 : Vec Ideal S1x512 .f32) (x13 : Vec Ideal S512x256 .bf16)
    (x14 : Vec Ideal S1x256 .f32) (x15 : Vec Ideal S256x64 .bf16) (x16 : Vec Ideal S1x64 .f32)
    (x17 : Vec Ideal S64x1 .bf16) (x18 : Vec Ideal S1x1 .f32) : Params where
  Wrj := fun k c => x2 (ix2 k c)
  bj  := fun c => x3 (ix2 (0 : Fin 1) c)
  Woj := fun k c => x4 (ix2 k c)
  Wrr := fun k c => x7 (ix2 k c)
  br  := fun c => x8 (ix2 (0 : Fin 1) c)
  Wor := fun k c => x9 (ix2 k c)
  W1a := fun k c => x10 (ix2 k c)
  W1b := fun k c => x11 (ix2 k c)
  b1  := fun c => x12 (ix2 (0 : Fin 1) c)
  W2  := fun k c => x13 (ix2 k c)
  b2  := fun c => x14 (ix2 (0 : Fin 1) c)
  W3  := fun k c => x15 (ix2 k c)
  b3  := fun c => x16 (ix2 (0 : Fin 1) c)
  W4  := fun k c => x17 (ix2 k c)
  b4  := fun c => x18 (ix2 (0 : Fin 1) c)

/-- The job side of a step: the rectified graph convolution of rows `p`. -/
theorem job_apply (v0 : Vec Ideal S128x1536 .bf16) (v2 : Vec Ideal S1536x1536 .bf16) (v5 : Vec Ideal S128x1536 .bf16)
    (v7 : Vec Ideal S1536x1536 .bf16) (v11 : Vec Ideal S1x1536 .f32) (p : Fin 128) (q : Fin 1536) :
    k0_pay2 v0 v2 v5 v7 v11 (ix2 p q)
      = two (fun k => v0 (ix2 p k)) (fun k => v5 (ix2 p k)) (fun k c => v2 (ix2 k c)) (fun k c => v7 (ix2 k c))
          (fun c => v11 (ix2 (0 : Fin 1) c)) q := by
  unfold k0_pay2
  simp only [shapeCast_self, truncf_apply, maximumf_apply, addf_apply, broadcast_apply, broadcastTo_1b_ab_apply,
    Cert.ZeroAccDots.rows_columns dot_S128x1536_S1536x1536_S128x1536_1_0_0_1_n_n rfl rfl rfl rfl rfl rfl rfl rfl]
  rfl

/-- The resume side of a step before it is rectified (the body hands this value from its first part to its second). -/
theorem resPre_apply (v18 : Vec Ideal S128x1536 .bf16) (v20 : Vec Ideal S1536x1536 .bf16) (v23 : Vec Ideal S128x1536 .bf16)
    (v25 : Vec Ideal S1536x1536 .bf16) (v29 : Vec Ideal S1x1536 .f32) (p : Fin 128) (q : Fin 1536) :
    k0_pay3 v18 v20 v23 v25 v29 (ix2 p q)
      = twoPre (fun k => v18 (ix2 p k)) (fun k => v23 (ix2 p k)) (fun k c => v20 (ix2 k c)) (fun k c => v25 (ix2 k c))
          (fun c => v29 (ix2 (0 : Fin 1) c)) q := by
  unfold k0_pay3
  simp only [shapeCast_self, addf_apply, broadcastTo_1b_ab_apply,
    Cert.ZeroAccDots.rows_columns dot_S128x1536_S1536x1536_S128x1536_1_0_0_1_n_n rfl rfl rfl rfl rfl rfl rfl rfl]
  rfl

/-- The three hidden layers of the perceptron on a step's two embeddings, the resume one rectified here against
    the scalar `z` the first part hands over. -/
theorem hidden_apply (v17 : FVec Ideal S128x1536 .bf16) (v32 : FVec Ideal S128x1536 .f32) (z : Ideal .f32)
    (v36 v39 : Vec Ideal S1536x512 .bf16) (v43 : Vec Ideal S1x512 .f32) (v50 : Vec Ideal S512x256 .bf16)
    (v53 : Vec Ideal S1x256 .f32) (v60 : Vec Ideal S256x64 .bf16) (v63 : Vec Ideal S1x64 .f32) (p : Fin 128) (q : Fin 64) :
    k0_pay4 v17 v32 z v36 v39 v43 v50 v53 v60 v63 (ix2 p q)
      = layer (layer (two (fun k => v17 (ix2 p k)) (fun k => max (v32 (ix2 p k)) z) (fun k c => v36 (ix2 k c))
            (fun k c => v39 (ix2 k c)) (fun c => v43 (ix2 (0 : Fin 1) c)))
          (fun k c => v50 (ix2 k c)) (fun c => v53 (ix2 (0 : Fin 1) c)))
          (fun k c => v60 (ix2 k c)) (fun c => v63 (ix2 (0 : Fin 1) c)) q := by
  unfold k0_pay4
  simp only [shapeCast_self, truncf_apply, maximumf_apply, addf_apply, broadcast_apply, broadcastTo_1b_ab_apply,
    Cert.ZeroAccDots.rows_columns dot_S128x1536_S1536x512_S128x512_1_0_0_1_n_n rfl rfl rfl rfl rfl rfl rfl rfl,
    Cert.ZeroAccDots.rows_columns dot_S128x512_S512x256_S128x256_1_0_0_1_n_n rfl rfl rfl rfl rfl rfl rfl rfl,
    Cert.ZeroAccDots.rows_columns dot_S128x256_S256x64_S128x64_1_0_0_1_n_n rfl rfl rfl rfl rfl rfl rfl rfl]
  rfl

/-- The last affine layer of a step. -/
theorem out_apply (v69 : FVec Ideal S128x64 .bf16) (v70 : Vec Ideal S64x1 .bf16) (v73 : Vec Ideal S1x1 .f32)
    (p : Fin 128) (q : Fin 1) :
    k0_pay1 v69 v70 v73 (ix2 p q)
      = lin (fun k => v69 (ix2 p k)) (fun k c => v70 (ix2 k c)) (fun c => v73 (ix2 (0 : Fin 1) c)) q := by
  unfold k0_pay1
  simp only [shapeCast_self, addf_apply, broadcastTo_1b_ab_apply,
    Cert.ZeroAccDots.rows_columns dot_S128x64_S64x1_S128x1_1_0_0_1_n_n rfl rfl rfl rfl rfl rfl rfl rfl]
  rfl

/-- ROW `p` OF A STEP'S BLOCK is the score of the pair whose four rows are row `p` of the step's four tiled operands. -/
theorem block_apply (x0 x1 : Vec Ideal S128x1536 .bf16) (x2 : Vec Ideal S1536x1536 .bf16) (x3 : Vec Ideal S1x1536 .f32)
    (x4 : Vec Ideal S1536x1536 .bf16) (x5 x6 : Vec Ideal S128x1536 .bf16) (x7 : Vec Ideal S1536x1536 .bf16)
    (x8 : Vec Ideal S1x1536 .f32) (x9 : Vec Ideal S1536x1536 .bf16) (x10 x11 : Vec Ideal S1536x512 .bf16)
    (x12 : Vec Ideal S1x512 .f32) (x13 : Vec Ideal S512x256 .bf16) (x14 : Vec Ideal S1x256 .f32)
    (x15 : Vec Ideal S256x64 .bf16) (x16 : Vec Ideal S1x64 .f32) (x17 : Vec Ideal S64x1 .bf16) (x18 : Vec Ideal S1x1 .f32)
    (p : Fin 128) (q : Fin 1) :
    k0_pay1 (k0_pay4 (k0_pay2 x0 x2 x1 x4 x3) (k0_pay3 x5 x7 x6 x9 x8) (Scalar.ofBits .f32 0x00000000#32)
        x10 x11 x12 x13 x14 x15 x16) x17 x18 (ix2 p q)
      = score (tileParams x2 x3 x4 x7 x8 x9 x10 x11 x12 x13 x14 x15 x16 x17 x18)
          (fun k => x0 (ix2 p k)) (fun k => x1 (ix2 p k)) (fun k => x5 (ix2 p k)) (fun k => x6 (ix2 p k)) q := by
  simp only [out_apply, hidden_apply, job_apply, resPre_apply]
  rfl

end Cert.KernelIdeal.Tile

end
-- ==== Proof.ScoreArray.lean ====
/-
  From the grid steps' blocks to the whole array of scores.

  The grid has 32 steps; step `t` reads rows 128·t … 128·t + 127 of the four row-tiled operands and every weight whole,
  and writes rows 128·t … 128·t + 127 of the [4096, 1] output. Row `p` of the block a step writes is the score of the
  pair whose rows are row `p` of the step's operand blocks (`Tile.block_apply`), that is, rows 128·t + `p` of the
  arrays. So every step's block is a block of ONE function of the arrays — entry `(r, 0)` is the score of row `r` —
  and since the 32 blocks tile the output (row `r` lies in step `r / 128`'s block), the output array ends holding
  that function.
-/
import proofs.«125849_j38362647888477_2_alg».proof.Proof.Gen.KernelIdeal.Frame
import proofs.«125849_j38362647888477_2_alg».proof.Proof.TileValue
import Idealize.ShloMosaic.Lib.Pipeline.Value
import Idealize.ShloMosaic.Lib.ValueIdx

set_option maxRecDepth 16384

noncomputable section

namespace Cert.KernelIdeal.Scores

open Idealize.ShloMosaic Idealize.ShloMosaic.TcCoe Idealize.ShloMosaic.ValueIdx Idealize.SL.Sem
open Idealize.ShloMosaic.Pipeline (Dat)
open Cert.KernelIdeal Cert.KernelIdeal.Gen Cert.Score

variable (m : (ℓ : Loc nD τ sig) → Buf (Elt Ideal) ℓ)

theorem zero_offsets : (![0, 0] : Fin 2 → Nat) = fun _ => 0 := funext fun a => by fin_cases a <;> rfl

/-- The scores as one function of the arrays the region finds: entry `(r, q)` is the score of the pair whose rows are
    row `r` of the four row-tiled arrays, under the weights the other arrays hold. -/
def rowScores (a0 : Vec Ideal S4096x1536 .bf16) (a1 : Vec Ideal S4096x1536 .bf16) (a2 : Vec Ideal S1536x1536 .bf16) (a3 : Vec Ideal S1x1536 .f32) (a4 : Vec Ideal S1536x1536 .bf16) (a5 : Vec Ideal S4096x1536 .bf16) (a6 : Vec Ideal S4096x1536 .bf16) (a7 : Vec Ideal S1536x1536 .bf16) (a8 : Vec Ideal S1x1536 .f32) (a9 : Vec Ideal S1536x1536 .bf16) (a10 : Vec Ideal S1536x512 .bf16) (a11 : Vec Ideal S1536x512 .bf16) (a12 : Vec Ideal S1x512 .f32) (a13 : Vec Ideal S512x256 .bf16) (a14 : Vec Ideal S1x256 .f32) (a15 : Vec Ideal S256x64 .bf16) (a16 : Vec Ideal S1x64 .f32) (a17 : Vec Ideal S64x1 .bf16) (a18 : Vec Ideal S1x1 .f32) :
    S4096x1.Idx → EReal := fun i =>
  score (Tile.tileParams a2 a3 a4 a7 a8 a9 a10 a11 a12 a13 a14 a15 a16 a17 a18)
    (fun k => a0 (ix2 (i 0) k)) (fun k => a1 (ix2 (i 0) k)) (fun k => a5 (ix2 (i 0) k)) (fun k => a6 (ix2 (i 0) k)) (i 1)

/-- The printed index maps, decided over the 32 grid points: the four row-tiled windows sit at the output's block row and
    at column block 0, every weight window at block (0, 0), and the output at column block 0 of a block row below 32. -/
theorem index_facts : ∀ t : Fin cfg0.N, win0_0.index t (0 : Fin 2) = win0_19.index t (0 : Fin 2) ∧ win0_0.index t (1 : Fin 2) = 0
    ∧ win0_1.index t (0 : Fin 2) = win0_19.index t (0 : Fin 2) ∧ win0_1.index t (1 : Fin 2) = 0
    ∧ win0_5.index t (0 : Fin 2) = win0_19.index t (0 : Fin 2) ∧ win0_5.index t (1 : Fin 2) = 0
    ∧ win0_6.index t (0 : Fin 2) = win0_19.index t (0 : Fin 2) ∧ win0_6.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0
    ∧ win0_19.index t (1 : Fin 2) = 0
    ∧ win0_19.index t (0 : Fin 2) ≤ 31 :=
  (by decide +kernel : ∀ t : Fin grid0.N, _)

/-- Every block row of the output is some point's. -/
theorem index_onto : ∀ b : Fin 32, ∃ t : Fin cfg0.N, win0_19.index t (0 : Fin 2) = b.val :=
  (by decide +kernel : ∀ b : Fin 32, ∃ t : Fin grid0.N, win0_19.index t (0 : Fin 2) = b.val)

/-- Window 0 moves with the output: row `p` of its block at point `t` is the array's row that row `p` of the output's block is. -/
theorem rows0 (c : Dev nD) (t : Fin cfg0.N) (p : Fin 128) (q : Fin 1) (k : Fin 1536) :
    iblk m c 0 t (ix2 p k) = V m c main_v10 (ix2 ((((cfg0.win 19).blk t).view.emb (ix2 p q)) 0) k) := by
  show V m c main_v10 (((cfg0.win 0).blk t).view.emb (ix2 p k)) = V m c main_v10 (ix2 ((((cfg0.win 19).blk t).view.emb (ix2 p q)) 0) k)
  have h : ((cfg0.win 0).blk t).view.emb (ix2 p k) = ix2 ((((cfg0.win 19).blk t).view.emb (ix2 p q)) 0) k := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_0.index t (0 : Fin 2) * 128 + 1 * p.val = win0_19.index t (0 : Fin 2) * 128 + 1 * p.val; rw [e0_0]
    | ⟨1, _⟩ => show win0_0.index t (1 : Fin 2) * 1536 + 1 * k.val = k.val; rw [e0_1]; omega
  rw [h]
  all_goals rfl

/-- Window 1 moves with the output: row `p` of its block at point `t` is the array's row that row `p` of the output's block is. -/
theorem rows1 (c : Dev nD) (t : Fin cfg0.N) (p : Fin 128) (q : Fin 1) (k : Fin 1536) :
    iblk m c 1 t (ix2 p k) = V m c main_v22 (ix2 ((((cfg0.win 19).blk t).view.emb (ix2 p q)) 0) k) := by
  show V m c main_v22 (((cfg0.win 1).blk t).view.emb (ix2 p k)) = V m c main_v22 (ix2 ((((cfg0.win 19).blk t).view.emb (ix2 p q)) 0) k)
  have h : ((cfg0.win 1).blk t).view.emb (ix2 p k) = ix2 ((((cfg0.win 19).blk t).view.emb (ix2 p q)) 0) k := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_1.index t (0 : Fin 2) * 128 + 1 * p.val = win0_19.index t (0 : Fin 2) * 128 + 1 * p.val; rw [e1_0]
    | ⟨1, _⟩ => show win0_1.index t (1 : Fin 2) * 1536 + 1 * k.val = k.val; rw [e1_1]; omega
  rw [h]
  all_goals rfl

/-- Window 5 moves with the output: row `p` of its block at point `t` is the array's row that row `p` of the output's block is. -/
theorem rows5 (c : Dev nD) (t : Fin cfg0.N) (p : Fin 128) (q : Fin 1) (k : Fin 1536) :
    iblk m c 5 t (ix2 p k) = V m c main_v21 (ix2 ((((cfg0.win 19).blk t).view.emb (ix2 p q)) 0) k) := by
  show V m c main_v21 (((cfg0.win 5).blk t).view.emb (ix2 p k)) = V m c main_v21 (ix2 ((((cfg0.win 19).blk t).view.emb (ix2 p q)) 0) k)
  have h : ((cfg0.win 5).blk t).view.emb (ix2 p k) = ix2 ((((cfg0.win 19).blk t).view.emb (ix2 p q)) 0) k := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_5.index t (0 : Fin 2) * 128 + 1 * p.val = win0_19.index t (0 : Fin 2) * 128 + 1 * p.val; rw [e5_0]
    | ⟨1, _⟩ => show win0_5.index t (1 : Fin 2) * 1536 + 1 * k.val = k.val; rw [e5_1]; omega
  rw [h]
  all_goals rfl

/-- Window 6 moves with the output: row `p` of its block at point `t` is the array's row that row `p` of the output's block is. -/
theorem rows6 (c : Dev nD) (t : Fin cfg0.N) (p : Fin 128) (q : Fin 1) (k : Fin 1536) :
    iblk m c 6 t (ix2 p k) = V m c main_v23 (ix2 ((((cfg0.win 19).blk t).view.emb (ix2 p q)) 0) k) := by
  show V m c main_v23 (((cfg0.win 6).blk t).view.emb (ix2 p k)) = V m c main_v23 (ix2 ((((cfg0.win 19).blk t).view.emb (ix2 p q)) 0) k)
  have h : ((cfg0.win 6).blk t).view.emb (ix2 p k) = ix2 ((((cfg0.win 19).blk t).view.emb (ix2 p q)) 0) k := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_6.index t (0 : Fin 2) * 128 + 1 * p.val = win0_19.index t (0 : Fin 2) * 128 + 1 * p.val; rw [e6_0]
    | ⟨1, _⟩ => show win0_6.index t (1 : Fin 2) * 1536 + 1 * k.val = k.val; rw [e6_1]; omega
  rw [h]
  all_goals rfl

/-- Window 2 is its whole array at every point. -/
theorem whole2 (c : Dev nD) (t : Fin cfg0.N) : iblk m c 2 t = V m c main_v24 := by
  funext y
  show V m c main_v24 (((cfg0.win 2).blk t).view.emb y) = V m c main_v24 y
  have h : ((cfg0.win 2).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_2.index t (0 : Fin 2) * 1536 + 1 * (y 0).val = (y 0).val; rw [e2_0]; omega
    | ⟨1, _⟩ => show win0_2.index t (1 : Fin 2) * 1536 + 1 * (y 1).val = (y 1).val; rw [e2_1]; omega
  rw [h]

/-- Window 3 is its whole array at every point. -/
theorem whole3 (c : Dev nD) (t : Fin cfg0.N) : iblk m c 3 t = V m c main_v28 := by
  funext y
  show V m c main_v28 (((cfg0.win 3).blk t).view.emb y) = V m c main_v28 y
  have h : ((cfg0.win 3).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_3.index t (0 : Fin 2) * 1 + 1 * (y 0).val = (y 0).val; rw [e3_0]; omega
    | ⟨1, _⟩ => show win0_3.index t (1 : Fin 2) * 1536 + 1 * (y 1).val = (y 1).val; rw [e3_1]; omega
  rw [h]

/-- Window 4 is its whole array at every point. -/
theorem whole4 (c : Dev nD) (t : Fin cfg0.N) : iblk m c 4 t = V m c main_v25 := by
  funext y
  show V m c main_v25 (((cfg0.win 4).blk t).view.emb y) = V m c main_v25 y
  have h : ((cfg0.win 4).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_4.index t (0 : Fin 2) * 1536 + 1 * (y 0).val = (y 0).val; rw [e4_0]; omega
    | ⟨1, _⟩ => show win0_4.index t (1 : Fin 2) * 1536 + 1 * (y 1).val = (y 1).val; rw [e4_1]; omega
  rw [h]

/-- Window 7 is its whole array at every point. -/
theorem whole7 (c : Dev nD) (t : Fin cfg0.N) : iblk m c 7 t = V m c main_v26 := by
  funext y
  show V m c main_v26 (((cfg0.win 7).blk t).view.emb y) = V m c main_v26 y
  have h : ((cfg0.win 7).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_7.index t (0 : Fin 2) * 1536 + 1 * (y 0).val = (y 0).val; rw [e7_0]; omega
    | ⟨1, _⟩ => show win0_7.index t (1 : Fin 2) * 1536 + 1 * (y 1).val = (y 1).val; rw [e7_1]; omega
  rw [h]

/-- Window 8 is its whole array at every point. -/
theorem whole8 (c : Dev nD) (t : Fin cfg0.N) : iblk m c 8 t = V m c main_v29 := by
  funext y
  show V m c main_v29 (((cfg0.win 8).blk t).view.emb y) = V m c main_v29 y
  have h : ((cfg0.win 8).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_8.index t (0 : Fin 2) * 1 + 1 * (y 0).val = (y 0).val; rw [e8_0]; omega
    | ⟨1, _⟩ => show win0_8.index t (1 : Fin 2) * 1536 + 1 * (y 1).val = (y 1).val; rw [e8_1]; omega
  rw [h]

/-- Window 9 is its whole array at every point. -/
theorem whole9 (c : Dev nD) (t : Fin cfg0.N) : iblk m c 9 t = V m c main_v27 := by
  funext y
  show V m c main_v27 (((cfg0.win 9).blk t).view.emb y) = V m c main_v27 y
  have h : ((cfg0.win 9).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_9.index t (0 : Fin 2) * 1536 + 1 * (y 0).val = (y 0).val; rw [e9_0]; omega
    | ⟨1, _⟩ => show win0_9.index t (1 : Fin 2) * 1536 + 1 * (y 1).val = (y 1).val; rw [e9_1]; omega
  rw [h]

/-- Window 10 is its whole array at every point. -/
theorem whole10 (c : Dev nD) (t : Fin cfg0.N) : iblk m c 10 t = V m c main_v31 := by
  funext y
  show V m c main_v31 (((cfg0.win 10).blk t).view.emb y) = V m c main_v31 y
  have h : ((cfg0.win 10).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_10.index t (0 : Fin 2) * 1536 + 1 * (y 0).val = (y 0).val; rw [e10_0]; omega
    | ⟨1, _⟩ => show win0_10.index t (1 : Fin 2) * 512 + 1 * (y 1).val = (y 1).val; rw [e10_1]; omega
  rw [h]

/-- Window 11 is its whole array at every point. -/
theorem whole11 (c : Dev nD) (t : Fin cfg0.N) : iblk m c 11 t = V m c main_v33 := by
  funext y
  show V m c main_v33 (((cfg0.win 11).blk t).view.emb y) = V m c main_v33 y
  have h : ((cfg0.win 11).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_11.index t (0 : Fin 2) * 1536 + 1 * (y 0).val = (y 0).val; rw [e11_0]; omega
    | ⟨1, _⟩ => show win0_11.index t (1 : Fin 2) * 512 + 1 * (y 1).val = (y 1).val; rw [e11_1]; omega
  rw [h]

/-- Window 12 is its whole array at every point. -/
theorem whole12 (c : Dev nD) (t : Fin cfg0.N) : iblk m c 12 t = V m c main_v37 := by
  funext y
  show V m c main_v37 (((cfg0.win 12).blk t).view.emb y) = V m c main_v37 y
  have h : ((cfg0.win 12).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_12.index t (0 : Fin 2) * 1 + 1 * (y 0).val = (y 0).val; rw [e12_0]; omega
    | ⟨1, _⟩ => show win0_12.index t (1 : Fin 2) * 512 + 1 * (y 1).val = (y 1).val; rw [e12_1]; omega
  rw [h]

/-- Window 13 is its whole array at every point. -/
theorem whole13 (c : Dev nD) (t : Fin cfg0.N) : iblk m c 13 t = V m c main_v34 := by
  funext y
  show V m c main_v34 (((cfg0.win 13).blk t).view.emb y) = V m c main_v34 y
  have h : ((cfg0.win 13).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_13.index t (0 : Fin 2) * 512 + 1 * (y 0).val = (y 0).val; rw [e13_0]; omega
    | ⟨1, _⟩ => show win0_13.index t (1 : Fin 2) * 256 + 1 * (y 1).val = (y 1).val; rw [e13_1]; omega
  rw [h]

/-- Window 14 is its whole array at every point. -/
theorem whole14 (c : Dev nD) (t : Fin cfg0.N) : iblk m c 14 t = V m c main_v38 := by
  funext y
  show V m c main_v38 (((cfg0.win 14).blk t).view.emb y) = V m c main_v38 y
  have h : ((cfg0.win 14).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_14.index t (0 : Fin 2) * 1 + 1 * (y 0).val = (y 0).val; rw [e14_0]; omega
    | ⟨1, _⟩ => show win0_14.index t (1 : Fin 2) * 256 + 1 * (y 1).val = (y 1).val; rw [e14_1]; omega
  rw [h]

/-- Window 15 is its whole array at every point. -/
theorem whole15 (c : Dev nD) (t : Fin cfg0.N) : iblk m c 15 t = V m c main_v35 := by
  funext y
  show V m c main_v35 (((cfg0.win 15).blk t).view.emb y) = V m c main_v35 y
  have h : ((cfg0.win 15).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_15.index t (0 : Fin 2) * 256 + 1 * (y 0).val = (y 0).val; rw [e15_0]; omega
    | ⟨1, _⟩ => show win0_15.index t (1 : Fin 2) * 64 + 1 * (y 1).val = (y 1).val; rw [e15_1]; omega
  rw [h]

/-- Window 16 is its whole array at every point. -/
theorem whole16 (c : Dev nD) (t : Fin cfg0.N) : iblk m c 16 t = V m c main_v39 := by
  funext y
  show V m c main_v39 (((cfg0.win 16).blk t).view.emb y) = V m c main_v39 y
  have h : ((cfg0.win 16).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_16.index t (0 : Fin 2) * 1 + 1 * (y 0).val = (y 0).val; rw [e16_0]; omega
    | ⟨1, _⟩ => show win0_16.index t (1 : Fin 2) * 64 + 1 * (y 1).val = (y 1).val; rw [e16_1]; omega
  rw [h]

/-- Window 17 is its whole array at every point. -/
theorem whole17 (c : Dev nD) (t : Fin cfg0.N) : iblk m c 17 t = V m c main_v36 := by
  funext y
  show V m c main_v36 (((cfg0.win 17).blk t).view.emb y) = V m c main_v36 y
  have h : ((cfg0.win 17).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_17.index t (0 : Fin 2) * 64 + 1 * (y 0).val = (y 0).val; rw [e17_0]; omega
    | ⟨1, _⟩ => show win0_17.index t (1 : Fin 2) * 1 + 1 * (y 1).val = (y 1).val; rw [e17_1]; omega
  rw [h]

/-- Window 18 is its whole array at every point. -/
theorem whole18 (c : Dev nD) (t : Fin cfg0.N) : iblk m c 18 t = V m c main_v40 := by
  funext y
  show V m c main_v40 (((cfg0.win 18).blk t).view.emb y) = V m c main_v40 y
  have h : ((cfg0.win 18).blk t).view.emb y = y := by
    obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
    funext a; apply Fin.ext
    match a with
    | ⟨0, _⟩ => show win0_18.index t (0 : Fin 2) * 1 + 1 * (y 0).val = (y 0).val; rw [e18_0]; omega
    | ⟨1, _⟩ => show win0_18.index t (1 : Fin 2) * 1 + 1 * (y 1).val = (y 1).val; rw [e18_1]; omega
  rw [h]

set_option maxHeartbeats 1000000 in
/-- WHAT POINT `t` WRITES BACK is block `t` of `rowScores` of the arrays as the region finds them. -/
theorem flushed_eq (c : Dev nD) (t : Fin cfg0.N) :
    (dats m 0 c).flushed 19 t = ((cfg0.win 19).blk t).view.read (Elt Ideal)
      (rowScores (V m c main_v10) (V m c main_v22) (V m c main_v24) (V m c main_v28) (V m c main_v25) (V m c main_v21) (V m c main_v23) (V m c main_v26) (V m c main_v29) (V m c main_v27) (V m c main_v31) (V m c main_v33) (V m c main_v37) (V m c main_v34) (V m c main_v38) (V m c main_v35) (V m c main_v39) (V m c main_v36) (V m c main_v40)) := by
  show (cfg0.win 19).cut (grid0.coords t) ((dats m 0 c).after 19 t) = _
  rw [after0_19]
  unfold out0_19
  rw [View.canon_unit_zero zero_offsets]
  simp only [View.ld_unit_zero (S := S128x1536) zero_offsets, View.ld_unit_zero (S := S1536x1536) zero_offsets, View.ld_unit_zero (S := S1x1536) zero_offsets, View.ld_unit_zero (S := S1536x512) zero_offsets, View.ld_unit_zero (S := S1x512) zero_offsets, View.ld_unit_zero (S := S512x256) zero_offsets, View.ld_unit_zero (S := S1x256) zero_offsets, View.ld_unit_zero (S := S256x64) zero_offsets, View.ld_unit_zero (S := S1x64) zero_offsets, View.ld_unit_zero (S := S64x1) zero_offsets, View.ld_unit_zero (S := S1x1) zero_offsets]
  funext j
  obtain ⟨p, q, rfl⟩ : ∃ (p : Fin 128) (q : Fin 1), j = ix2 p q := ⟨j 0, j 1, eq_ix2 j⟩
  show k0_pay1 (k0_pay4 (k0_pay2 (iblk m c 0 t) (iblk m c 2 t) (iblk m c 1 t) (iblk m c 4 t) (iblk m c 3 t)) (k0_pay3 (iblk m c 5 t) (iblk m c 7 t) (iblk m c 6 t) (iblk m c 9 t) (iblk m c 8 t)) (Scalar.ofBits .f32 0x00000000#32) (iblk m c 10 t) (iblk m c 11 t) (iblk m c 12 t) (iblk m c 13 t) (iblk m c 14 t) (iblk m c 15 t) (iblk m c 16 t)) (iblk m c 17 t) (iblk m c 18 t) (ix2 p q)
    = rowScores (V m c main_v10) (V m c main_v22) (V m c main_v24) (V m c main_v28) (V m c main_v25) (V m c main_v21) (V m c main_v23) (V m c main_v26) (V m c main_v29) (V m c main_v27) (V m c main_v31) (V m c main_v33) (V m c main_v37) (V m c main_v34) (V m c main_v38) (V m c main_v35) (V m c main_v39) (V m c main_v36) (V m c main_v40) (((cfg0.win 19).blk t).view.emb (ix2 p q))
  refine (Tile.block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans ?_
  unfold rowScores
  rw [whole2 m c t, whole3 m c t, whole4 m c t, whole7 m c t, whole8 m c t, whole9 m c t, whole10 m c t, whole11 m c t, whole12 m c t, whole13 m c t, whole14 m c t, whole15 m c t, whole16 m c t, whole17 m c t, whole18 m c t]
  have r0 : (fun k => iblk m c 0 t (ix2 p k)) = fun k => V m c main_v10 (ix2 ((((cfg0.win 19).blk t).view.emb (ix2 p q)) 0) k) := funext fun k => rows0 m c t p q k
  have r1 : (fun k => iblk m c 1 t (ix2 p k)) = fun k => V m c main_v22 (ix2 ((((cfg0.win 19).blk t).view.emb (ix2 p q)) 0) k) := funext fun k => rows1 m c t p q k
  have r5 : (fun k => iblk m c 5 t (ix2 p k)) = fun k => V m c main_v21 (ix2 ((((cfg0.win 19).blk t).view.emb (ix2 p q)) 0) k) := funext fun k => rows5 m c t p q k
  have r6 : (fun k => iblk m c 6 t (ix2 p k)) = fun k => V m c main_v23 (ix2 ((((cfg0.win 19).blk t).view.emb (ix2 p q)) 0) k) := funext fun k => rows6 m c t p q k
  rw [r0, r1, r5, r6]
  exact congrArg (score _ _ _ _ _) (Subsingleton.elim (α := Fin 1) _ _)

/-- An index of the output array is in point `t`'s block iff each coordinate is in the block's range on its axis. -/
theorem mem_block (t : Fin cfg0.N) (i : S4096x1.Idx) :
    i ∈ ((cfg0.win 19).blk t).view.set ↔ ∀ a : Fin 2, win0_19.index t a * S128x1.size a ≤ (i a).val ∧ (i a).val < win0_19.index t a * S128x1.size a + S128x1.size a := by
  show i ∈ ((View.whole main_v41).slice (win0_19.rect t)).set ↔ _
  rw [View.set_slice_whole, Rect.mem_set_unit]
  exact Iff.rfl

/-- The 32 blocks tile the output: row `r` lies in the block of the point at block row `r / 128`. -/
theorem covered (i : S4096x1.Idx) : ∃ t : Fin cfg0.N, (cfg0.win 19).flush t = true ∧ i ∈ ((cfg0.win 19).blk t).view.set := by
  have hi0 : (i 0).val < 4096 := (i 0).isLt
  have hi1 : (i 1).val < 1 := (i 1).isLt
  obtain ⟨t, ht⟩ := index_onto ⟨(i 0).val / 128, by omega⟩
  have ht' : win0_19.index t (0 : Fin 2) = (i 0).val / 128 := ht
  obtain ⟨e0_0, e0_1, e1_0, e1_1, e5_0, e5_1, e6_0, e6_1, e2_0, e2_1, e3_0, e3_1, e4_0, e4_1, e7_0, e7_1, e8_0, e8_1, e9_0, e9_1, e10_0, e10_1, e11_0, e11_1, e12_0, e12_1, e13_0, e13_1, e14_0, e14_1, e15_0, e15_1, e16_0, e16_1, e17_0, e17_1, e18_0, e18_1, e19_1, e19_b⟩ := index_facts t
  refine ⟨t, flush0_19 t, ?_⟩
  rw [mem_block]
  intro a
  match a with
  | ⟨0, _⟩ => show win0_19.index t (0 : Fin 2) * 128 ≤ (i 0).val ∧ (i 0).val < win0_19.index t (0 : Fin 2) * 128 + 128; omega
  | ⟨1, _⟩ => show win0_19.index t (1 : Fin 2) * 1 ≤ (i 1).val ∧ (i 1).val < win0_19.index t (1 : Fin 2) * 1 + 1; omega

/-- THE OUTPUT ARRAY after the run is `rowScores` of the arrays as the region finds them. -/
theorem final (c : Dev nD) : (dats m 0 c).arrAt 19 cfg0.N = rowScores (V m c main_v10) (V m c main_v22) (V m c main_v24) (V m c main_v28) (V m c main_v25) (V m c main_v21) (V m c main_v23) (V m c main_v26) (V m c main_v29) (V m c main_v27) (V m c main_v31) (V m c main_v33) (V m c main_v37) (V m c main_v34) (V m c main_v38) (V m c main_v35) (V m c main_v39) (V m c main_v36) (V m c main_v40) :=
  (dats m 0 c).arrAt_eq_of_cover 19 _ (fun t _ => flushed_eq m c t) covered

end Cert.KernelIdeal.Scores

end
-- ==== Proof.Operands.lean ====
/-
  What the region finds in each of its operand arrays.

  Before the region the program prepares its operands on the host: the two aggregated-skill arrays (a gather of skill
  rows by the edges' sources, scatter-added into the rows the edges' targets name), the node arrays and every weight
  matrix narrowed to the products' input format, each bias vector recast as a [1, N] row, and the first perceptron
  weight cut into its upper and lower 1536 rows. Each array below is stated as those operations of the program's
  arguments. The aggregation is the reference's own first stages, operation for operation, so it is named by the
  reference's stage and never opened.
-/
import proofs.«125849_j38362647888477_2_alg».proof.Proof.Gen.KernelIdeal.Frame
import proofs.«125849_j38362647888477_2_alg».proof.Proof.Gen.ReferenceIdeal.Read
import Idealize.ShloMosaic.Lib.StableHlo.Run
import Idealize.ShloMosaic.Lib.ValueIdx

noncomputable section

namespace Cert.KernelIdeal.Operands

open Idealize.ShloMosaic Idealize.ShloMosaic.TcCoe Idealize.SL.Sem Cert.KernelIdeal Cert.KernelIdeal.Gen

variable (m : (ℓ : Loc nD τ sig) → Buf (Elt Ideal) ℓ)

set_option maxHeartbeats 1000000 in
/-- The job side's aggregated skills: the same gather of skill rows and scatter-add over the edges that the reference forms, then narrowed to the products' input format. -/
theorem at_main_v10 (c : Dev nD) : @Eq (S4096x1536.Idx → EReal) (V m c main_v10)
    (truncf .bf16 (Cert.ReferenceIdeal.Read.val_main_v9 (F := Ideal) (m ((c : Thread nD τ).loc main_arg0)) (m ((c : Thread nD τ).loc main_arg3)) (m ((c : Thread nD τ).loc main_arg4))) bitsLt_bf16_f32 : FVec Ideal S4096x1536 .bf16) := by
  show StableHlo.after hostOps0 (fun b => m (c, b)) (Proc.devRef .tc main_v10) = _
  after_results_simp
  unfold Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst
  rfl

set_option maxHeartbeats 1000000 in
/-- The resume side's aggregated skills, likewise. -/
theorem at_main_v21 (c : Dev nD) : @Eq (S4096x1536.Idx → EReal) (V m c main_v21)
    (truncf .bf16 (Cert.ReferenceIdeal.Read.val_main_v26 (F := Ideal) (m ((c : Thread nD τ).loc main_arg0)) (m ((c : Thread nD τ).loc main_arg5)) (m ((c : Thread nD τ).loc main_arg6))) bitsLt_bf16_f32 : FVec Ideal S4096x1536 .bf16) := by
  show StableHlo.after hostOps0 (fun b => m (c, b)) (Proc.devRef .tc main_v21) = _
  after_results_simp
  unfold Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_c_1 Cert.ReferenceIdeal.Read.val_main_c_2 Cert.ReferenceIdeal.Read.val_main_cst_3
  rfl

set_option maxHeartbeats 1000000 in
theorem at_main_v22 (c : Dev nD) : @Eq (S4096x1536.Idx → EReal) (V m c main_v22)
    (truncf .bf16 (m ((c : Thread nD τ).loc main_arg1)) bitsLt_bf16_f32 : FVec Ideal S4096x1536 .bf16) := by
  show StableHlo.after hostOps0 (fun b => m (c, b)) (Proc.devRef .tc main_v22) = _
  after_results_simp <;> rfl

set_option maxHeartbeats 1000000 in
theorem at_main_v23 (c : Dev nD) : @Eq (S4096x1536.Idx → EReal) (V m c main_v23)
    (truncf .bf16 (m ((c : Thread nD τ).loc main_arg2)) bitsLt_bf16_f32 : FVec Ideal S4096x1536 .bf16) := by
  show StableHlo.after hostOps0 (fun b => m (c, b)) (Proc.devRef .tc main_v23) = _
  after_results_simp <;> rfl

set_option maxHeartbeats 1000000 in
theorem at_main_v24 (c : Dev nD) : @Eq (S1536x1536.Idx → EReal) (V m c main_v24)
    (truncf .bf16 (m ((c : Thread nD τ).loc main_arg7)) bitsLt_bf16_f32 : FVec Ideal S1536x1536 .bf16) := by
  show StableHlo.after hostOps0 (fun b => m (c, b)) (Proc.devRef .tc main_v24) = _
  after_results_simp <;> rfl

set_option maxHeartbeats 1000000 in
theorem at_main_v25 (c : Dev nD) : @Eq (S1536x1536.Idx → EReal) (V m c main_v25)
    (truncf .bf16 (m ((c : Thread nD τ).loc main_arg9)) bitsLt_bf16_f32 : FVec Ideal S1536x1536 .bf16) := by
  show StableHlo.after hostOps0 (fun b => m (c, b)) (Proc.devRef .tc main_v25) = _
  after_results_simp <;> rfl

set_option maxHeartbeats 1000000 in
theorem at_main_v26 (c : Dev nD) : @Eq (S1536x1536.Idx → EReal) (V m c main_v26)
    (truncf .bf16 (m ((c : Thread nD τ).loc main_arg10)) bitsLt_bf16_f32 : FVec Ideal S1536x1536 .bf16) := by
  show StableHlo.after hostOps0 (fun b => m (c, b)) (Proc.devRef .tc main_v26) = _
  after_results_simp <;> rfl

set_option maxHeartbeats 1000000 in
theorem at_main_v27 (c : Dev nD) : @Eq (S1536x1536.Idx → EReal) (V m c main_v27)
    (truncf .bf16 (m ((c : Thread nD τ).loc main_arg12)) bitsLt_bf16_f32 : FVec Ideal S1536x1536 .bf16) := by
  show StableHlo.after hostOps0 (fun b => m (c, b)) (Proc.devRef .tc main_v27) = _
  after_results_simp <;> rfl

set_option maxHeartbeats 1000000 in
theorem at_main_v28 (c : Dev nD) : @Eq (S1x1536.Idx → EReal) (V m c main_v28)
    (shapeCast S1x1536 (m ((c : Thread nD τ).loc main_arg8)) shapeCasts_S1536_S1x1536 : FVec Ideal S1x1536 .f32) := by
  show StableHlo.after hostOps0 (fun b => m (c, b)) (Proc.devRef .tc main_v28) = _
  after_results_simp <;> rfl

set_option maxHeartbeats 1000000 in
theorem at_main_v29 (c : Dev nD) : @Eq (S1x1536.Idx → EReal) (V m c main_v29)
    (shapeCast S1x1536 (m ((c : Thread nD τ).loc main_arg11)) shapeCasts_S1536_S1x1536 : FVec Ideal S1x1536 .f32) := by
  show StableHlo.after hostOps0 (fun b => m (c, b)) (Proc.devRef .tc main_v29) = _
  after_results_simp <;> rfl

set_option maxHeartbeats 1000000 in
theorem at_main_v31 (c : Dev nD) : @Eq (S1536x512.Idx → EReal) (V m c main_v31)
    (truncf .bf16 (extractStridedSlice S1536x512 ![0, 0] (m ((c : Thread nD τ).loc main_arg13)) slices_S3072x512_S1536x512_0_0) bitsLt_bf16_f32 : FVec Ideal S1536x512 .bf16) := by
  show StableHlo.after hostOps0 (fun b => m (c, b)) (Proc.devRef .tc main_v31) = _
  after_results_simp <;> rfl

set_option maxHeartbeats 1000000 in
theorem at_main_v33 (c : Dev nD) : @Eq (S1536x512.Idx → EReal) (V m c main_v33)
    (truncf .bf16 (extractStridedSlice S1536x512 ![1536, 0] (m ((c : Thread nD τ).loc main_arg13)) slices_S3072x512_S1536x512_1536_0) bitsLt_bf16_f32 : FVec Ideal S1536x512 .bf16) := by
  show StableHlo.after hostOps0 (fun b => m (c, b)) (Proc.devRef .tc main_v33) = _
  after_results_simp <;> rfl

set_option maxHeartbeats 1000000 in
theorem at_main_v34 (c : Dev nD) : @Eq (S512x256.Idx → EReal) (V m c main_v34)
    (truncf .bf16 (m ((c : Thread nD τ).loc main_arg15)) bitsLt_bf16_f32 : FVec Ideal S512x256 .bf16) := by
  show StableHlo.after hostOps0 (fun b => m (c, b)) (Proc.devRef .tc main_v34) = _
  after_results_simp <;> rfl

set_option maxHeartbeats 1000000 in
theorem at_main_v35 (c : Dev nD) : @Eq (S256x64.Idx → EReal) (V m c main_v35)
    (truncf .bf16 (m ((c : Thread nD τ).loc main_arg17)) bitsLt_bf16_f32 : FVec Ideal S256x64 .bf16) := by
  show StableHlo.after hostOps0 (fun b => m (c, b)) (Proc.devRef .tc main_v35) = _
  after_results_simp <;> rfl

set_option maxHeartbeats 1000000 in
theorem at_main_v36 (c : Dev nD) : @Eq (S64x1.Idx → EReal) (V m c main_v36)
    (truncf .bf16 (m ((c : Thread nD τ).loc main_arg19)) bitsLt_bf16_f32 : FVec Ideal S64x1 .bf16) := by
  show StableHlo.after hostOps0 (fun b => m (c, b)) (Proc.devRef .tc main_v36) = _
  after_results_simp <;> rfl

set_option maxHeartbeats 1000000 in
theorem at_main_v37 (c : Dev nD) : @Eq (S1x512.Idx → EReal) (V m c main_v37)
    (shapeCast S1x512 (m ((c : Thread nD τ).loc main_arg14)) shapeCasts_S512_S1x512 : FVec Ideal S1x512 .f32) := by
  show StableHlo.after hostOps0 (fun b => m (c, b)) (Proc.devRef .tc main_v37) = _
  after_results_simp <;> rfl

set_option maxHeartbeats 1000000 in
theorem at_main_v38 (c : Dev nD) : @Eq (S1x256.Idx → EReal) (V m c main_v38)
    (shapeCast S1x256 (m ((c : Thread nD τ).loc main_arg16)) shapeCasts_S256_S1x256 : FVec Ideal S1x256 .f32) := by
  show StableHlo.after hostOps0 (fun b => m (c, b)) (Proc.devRef .tc main_v38) = _
  after_results_simp <;> rfl

set_option maxHeartbeats 1000000 in
theorem at_main_v39 (c : Dev nD) : @Eq (S1x64.Idx → EReal) (V m c main_v39)
    (shapeCast S1x64 (m ((c : Thread nD τ).loc main_arg18)) shapeCasts_S64_S1x64 : FVec Ideal S1x64 .f32) := by
  show StableHlo.after hostOps0 (fun b => m (c, b)) (Proc.devRef .tc main_v39) = _
  after_results_simp <;> rfl

set_option maxHeartbeats 1000000 in
theorem at_main_v40 (c : Dev nD) : @Eq (S1x1.Idx → EReal) (V m c main_v40)
    (shapeCast S1x1 (m ((c : Thread nD τ).loc main_arg20)) shapeCasts_S1_S1x1 : FVec Ideal S1x1 .f32) := by
  show StableHlo.after hostOps0 (fun b => m (c, b)) (Proc.devRef .tc main_v40) = _
  after_results_simp <;> rfl

end Cert.KernelIdeal.Operands

end
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«125849_j38362647888477_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibSplitLinear.lean ====
/-
  A linear layer on two column blocks, read entry by entry.

  Let `a` be an [M, Ka] matrix, `b` an [M, Kb] matrix, `W` a [K, N] matrix with K = Ka + Kb, and `bias` a vector of
  length N. Writing [a | b] for the two matrices laid side by side, the entry (p, q) of [a | b] · W + bias is

      ( ∑ k < Ka, a (p, k) · W (k, q)  +  ∑ k < Kb, b (p, k) · W (Ka + k, q) )  +  bias q          (`entry`)

  because a sum over the K columns of [a | b] is the sum over its first Ka columns, where it holds `a`, plus the sum over
  its last Kb, where it holds `b`. Only the associativity and commutativity of addition are used, so the identity holds on
  the extended reals with no finiteness assumed.

  Two programs that compute it are read here at an index:
    * the host's form — concatenate along axis 1, one `dot_general` against the whole `W`, the bias placed as a row and
      repeated down the rows (`host_apply`);
    * a tile's form — two matrix products into zero accumulators, one per column block against its own rows of the weight,
      added, plus a [1, N] row repeated down the tile (`tile_apply`), whatever float formats the products' operands have;
      when the tile's two weights are the upper and lower row blocks cut from `W` and its row is `bias` recast as [1, N],
      the tile's entry is `entry` (`tileEntry_cut`).
  `layer` is the whole [M, N] array of entries; `host_eq` and `tile_cut_eq` are the two forms as array equations.
-/
import proofs.«125849_j38362647888477_2_alg».proof.Proof.LibPlainDot
import proofs.«125849_j38362647888477_2_alg».proof.Proof.LibDotSums
import proofs.«125849_j38362647888477_2_alg».proof.Proof.LibBiasRow
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.SplitLinear

open Idealize.ShloMosaic Idealize.ShloMosaic.ValueIdx

variable {M Ka Kb K N : Nat}

/-- Row `k` of the weight's upper block, as a row of the whole weight. -/
def topRow (hK : Ka + Kb = K) (k : Fin Ka) : Fin K := ⟨k.val, by have := k.isLt; omega⟩

/-- Row `k` of the weight's lower block, as a row of the whole weight: `Ka` rows further down. -/
def botRow (hK : Ka + Kb = K) (k : Fin Kb) : Fin K := ⟨Ka + k.val, by have := k.isLt; omega⟩

/-- The entry (p, q) of [a | b] · W + bias, the contraction written block by block. -/
def entry (hK : Ka + Kb = K) (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) (p : Fin M) (q : Fin N) : EReal :=
  (∑ k : Fin Ka, a (ix2 p k) * W (ix2 (topRow hK k) q) + ∑ k : Fin Kb, b (ix2 p k) * W (ix2 (botRow hK k) q))
    + bias (ix1 q)

/-- A sum over K = Ka + Kb indices is the sum over the first Ka plus the sum over the last Kb. -/
theorem sum_split (hK : Ka + Kb = K) (f : Fin K → EReal) :
    ∑ k : Fin K, f k = ∑ k : Fin Ka, f (topRow hK k) + ∑ k : Fin Kb, f (botRow hK k) := by
  subst hK
  rw [Fin.sum_univ_add]
  exact congrArg₂ (· + ·) (Finset.sum_congr rfl fun k _ => congrArg f (Fin.ext rfl))
    (Finset.sum_congr rfl fun k _ => congrArg f (Fin.ext rfl))

/-- [a | b] at a column of its left part is `a` there. -/
theorem cat_top {α : Type} (hK : Ka + Kb = K)
    (hc : Shape.Concatenates [(⟨2, ![M, Ka]⟩ : Shape), ⟨2, ![M, Kb]⟩] ⟨2, ![M, K]⟩ 1)
    (a : (⟨2, ![M, Ka]⟩ : Shape).Idx → α) (b : (⟨2, ![M, Kb]⟩ : Shape).Idx → α) (p : Fin M) (k : Fin Ka) :
    concatenate ⟨2, ![M, K]⟩ 1 [⟨⟨2, ![M, Ka]⟩, a⟩, ⟨⟨2, ![M, Kb]⟩, b⟩] hc (ix2 p (topRow hK k)) = a (ix2 p k) :=
  concatenate_pair_apply_left 1 a b hc (ix2 p (topRow hK k)) rfl (ix2 p k) (fun ax => by
    match ax with
    | ⟨0, _⟩ => rfl
    | ⟨1, _⟩ => rfl)

/-- [a | b] at a column of its right part is `b` at that column less the left part's width. -/
theorem cat_bot {α : Type} (hK : Ka + Kb = K)
    (hc : Shape.Concatenates [(⟨2, ![M, Ka]⟩ : Shape), ⟨2, ![M, Kb]⟩] ⟨2, ![M, K]⟩ 1)
    (a : (⟨2, ![M, Ka]⟩ : Shape).Idx → α) (b : (⟨2, ![M, Kb]⟩ : Shape).Idx → α) (p : Fin M) (k : Fin Kb) :
    concatenate ⟨2, ![M, K]⟩ 1 [⟨⟨2, ![M, Ka]⟩, a⟩, ⟨⟨2, ![M, Kb]⟩, b⟩] hc (ix2 p (botRow hK k)) = b (ix2 p k) :=
  concatenate_pair_apply_right 1 a b hc (ix2 p (botRow hK k)) rfl rfl (ix2 p k) (fun ax hne => by
    match ax with
    | ⟨0, _⟩ => rfl
    | ⟨1, _⟩ => exact absurd rfl hne)
    (by show k.val + Ka = Ka + k.val; omega)

/-- THE HOST'S FORM at (p, q): the `dot_general` of the concatenation against the whole weight, plus the bias placed as
    a row and repeated down the rows, is `entry`. -/
theorem host_apply (hK : Ka + Kb = K) (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (hc : Shape.Concatenates [(⟨2, ![M, Ka]⟩ : Shape), ⟨2, ![M, Kb]⟩] ⟨2, ![M, K]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (a : FVec Ideal ⟨2, ![M, Ka]⟩ .f32) (b : FVec Ideal ⟨2, ![M, Kb]⟩ .f32) (W : FVec Ideal ⟨2, ![K, N]⟩ .f32)
    (bias : FVec Ideal ⟨1, ![N]⟩ .f32) (p : Fin M) (q : Fin N) :
    addf (Host.dotGeneral d prec
          (concatenate ⟨2, ![M, K]⟩ 1 [⟨⟨2, ![M, Ka]⟩, a⟩, ⟨⟨2, ![M, Kb]⟩, b⟩] hc : FVec Ideal ⟨2, ![M, K]⟩ .f32) W)
        (broadcastInDim ⟨2, ![M, N]⟩ ![0, 1] hb2 (broadcastInDim ⟨2, ![1, N]⟩ ![1] hb1 bias)) (ix2 p q)
      = entry hK a b W bias p q := by
  rw [addf_apply]
  unfold entry
  refine congrArg₂ (· + ·) ?_ ?_
  · refine (Cert.DotSums.dotGeneral_ix2 d prec .single hlb hln hlc hrb hrn hrc hr hs _ W p q).trans ?_
    rw [sum_split hK]
    refine congrArg₂ (· + ·) (Finset.sum_congr rfl fun k _ => ?_) (Finset.sum_congr rfl fun k _ => ?_)
    · rw [cat_top hK hc a b p k]
    · rw [cat_bot hK hc a b p k]
  · rw [Cert.BiasRow.down_apply, Cert.BiasRow.row_apply]

/-- The two block sums along row `p` against column `q` of each block's own weight, plus the row's entry `q`. -/
def tileEntry {A : Nat} (a : (⟨2, ![A, Ka]⟩ : Shape).Idx → EReal) (wa : (⟨2, ![Ka, N]⟩ : Shape).Idx → EReal)
    (b : (⟨2, ![A, Kb]⟩ : Shape).Idx → EReal) (wb : (⟨2, ![Kb, N]⟩ : Shape).Idx → EReal)
    (row : (⟨2, ![1, N]⟩ : Shape).Idx → EReal) (p : Fin A) (q : Fin N) : EReal :=
  (∑ k : Fin Ka, a (ix2 p k) * wa (ix2 k q) + ∑ k : Fin Kb, b (ix2 p k) * wb (ix2 k q)) + row (ix2 (0 : Fin 1) q)

/-- With the weights the upper `Ka` rows and the next `Kb` rows cut from `W`, and the row the bias vector recast as
    [1, N], the tile's entry is the entry of [a | b] · W + bias. -/
theorem tileEntry_cut (hK : Ka + Kb = K)
    (hst : (⟨2, ![K, N]⟩ : Shape).Slices ![0, 0] ⟨2, ![Ka, N]⟩) (hsb : (⟨2, ![K, N]⟩ : Shape).Slices ![Ka, 0] ⟨2, ![Kb, N]⟩)
    (hrs : (⟨1, ![N]⟩ : Shape).ShapeCasts ⟨2, ![1, N]⟩)
    (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) (p : Fin M) (q : Fin N) :
    tileEntry a (extractStridedSlice ⟨2, ![Ka, N]⟩ ![0, 0] W hst) b (extractStridedSlice ⟨2, ![Kb, N]⟩ ![Ka, 0] W hsb)
        (shapeCast ⟨2, ![1, N]⟩ bias hrs) p q
      = entry hK a b W bias p q := by
  unfold tileEntry entry
  refine congrArg₂ (· + ·) (congrArg₂ (· + ·) (Finset.sum_congr rfl fun k _ => ?_) (Finset.sum_congr rfl fun k _ => ?_)) ?_
  · rw [slice2_axis0_apply 0 W hst k q (topRow hK k) (by show k.val = 0 + k.val; omega)]
  · rw [slice2_axis0_apply Ka W hsb k q (botRow hK k) rfl]
  · exact shapeCast_a_1a_apply bias hrs 0 q

/-- THE TILE'S FORM at (p, q): two products into zero accumulators, added, plus a [1, N] row repeated down the tile —
    the two block sums plus the row's entry `q`. The operands' float formats are free. -/
theorem tile_apply {A : Nat} {φ₁ φ₂ φ₃ φ₄ : FTy}
    (d₁ : DotDims ⟨2, ![A, Ka]⟩ ⟨2, ![Ka, N]⟩ ⟨2, ![A, N]⟩)
    (hlb₁ : d₁.lhsBatch = []) (hln₁ : d₁.lhsNonContracting = [0]) (hlc₁ : d₁.lhsContracting = [1])
    (hrb₁ : d₁.rhsBatch = []) (hrn₁ : d₁.rhsNonContracting = [1]) (hrc₁ : d₁.rhsContracting = [0])
    (hr₁ : d₁.contr.rank = 1) (hs₁ : d₁.contr.size ⟨0, by omega⟩ = Ka)
    (d₂ : DotDims ⟨2, ![A, Kb]⟩ ⟨2, ![Kb, N]⟩ ⟨2, ![A, N]⟩)
    (hlb₂ : d₂.lhsBatch = []) (hln₂ : d₂.lhsNonContracting = [0]) (hlc₂ : d₂.lhsContracting = [1])
    (hrb₂ : d₂.rhsBatch = []) (hrn₂ : d₂.rhsNonContracting = [1]) (hrc₂ : d₂.rhsContracting = [0])
    (hr₂ : d₂.contr.rank = 1) (hs₂ : d₂.contr.size ⟨0, by omega⟩ = Kb)
    (prec₁ prec₂ : Option ContractPrecision) (hbr : (⟨2, ![1, N]⟩ : Shape).Broadcasts ⟨2, ![A, N]⟩)
    (a : FVec Ideal ⟨2, ![A, Ka]⟩ φ₁) (wa : FVec Ideal ⟨2, ![Ka, N]⟩ φ₂)
    (b : FVec Ideal ⟨2, ![A, Kb]⟩ φ₃) (wb : FVec Ideal ⟨2, ![Kb, N]⟩ φ₄)
    (row : FVec Ideal ⟨2, ![1, N]⟩ .f32) (p : Fin A) (q : Fin N) :
    addf (addf (matmul d₁ prec₁ a wa (constant (F := Ideal) ⟨2, ![A, N]⟩ .f32 0x00000000#32))
               (matmul d₂ prec₂ b wb (constant (F := Ideal) ⟨2, ![A, N]⟩ .f32 0x00000000#32)))
         (broadcastTo ⟨2, ![A, N]⟩ row hbr) (ix2 p q)
      = tileEntry a wa b wb row p q := by
  unfold tileEntry
  rw [addf_apply, addf_apply]
  refine congrArg₂ (· + ·) (congrArg₂ (· + ·) ?_ ?_) ?_
  · exact Cert.DotSums.matmul_zero_ix2 d₁ prec₁ hlb₁ hln₁ hlc₁ hrb₁ hrn₁ hrc₁ hr₁ hs₁ a wa p q
  · exact Cert.DotSums.matmul_zero_ix2 d₂ prec₂ hlb₂ hln₂ hlc₂ hrb₂ hrn₂ hrc₂ hr₂ hs₂ b wb p q
  · exact broadcastTo_1b_ab_apply row hbr p q

/-! ## The whole arrays -/

/-- The [M, N] array [a | b] · W + bias. -/
def layer (hK : Ka + Kb = K) (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) : (⟨2, ![M, N]⟩ : Shape).Idx → EReal :=
  fun i => entry hK a b W bias (i 0) (i 1)

/-- The host's form is the array `layer`. -/
theorem host_eq (hK : Ka + Kb = K) (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (hc : Shape.Concatenates [(⟨2, ![M, Ka]⟩ : Shape), ⟨2, ![M, Kb]⟩] ⟨2, ![M, K]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (a : FVec Ideal ⟨2, ![M, Ka]⟩ .f32) (b : FVec Ideal ⟨2, ![M, Kb]⟩ .f32) (W : FVec Ideal ⟨2, ![K, N]⟩ .f32)
    (bias : FVec Ideal ⟨1, ![N]⟩ .f32) :
    addf (Host.dotGeneral d prec
          (concatenate ⟨2, ![M, K]⟩ 1 [⟨⟨2, ![M, Ka]⟩, a⟩, ⟨⟨2, ![M, Kb]⟩, b⟩] hc : FVec Ideal ⟨2, ![M, K]⟩ .f32) W)
        (broadcastInDim ⟨2, ![M, N]⟩ ![0, 1] hb2 (broadcastInDim ⟨2, ![1, N]⟩ ![1] hb1 bias))
      = layer hK a b W bias := by
  funext i
  obtain ⟨p, q, rfl⟩ : ∃ (p : Fin M) (q : Fin N), i = ix2 p q := ⟨i 0, i 1, eq_ix2 i⟩
  exact host_apply hK d hlb hln hlc hrb hrn hrc hr hs prec hc hb1 hb2 a b W bias p q

/-- The array of tile entries, with the weights cut from `W` and the row recast from `bias`, is the array `layer`. -/
theorem tile_cut_eq (hK : Ka + Kb = K)
    (hst : (⟨2, ![K, N]⟩ : Shape).Slices ![0, 0] ⟨2, ![Ka, N]⟩) (hsb : (⟨2, ![K, N]⟩ : Shape).Slices ![Ka, 0] ⟨2, ![Kb, N]⟩)
    (hrs : (⟨1, ![N]⟩ : Shape).ShapeCasts ⟨2, ![1, N]⟩)
    (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) :
    (fun i : (⟨2, ![M, N]⟩ : Shape).Idx =>
        tileEntry a (extractStridedSlice ⟨2, ![Ka, N]⟩ ![0, 0] W hst) b (extractStridedSlice ⟨2, ![Kb, N]⟩ ![Ka, 0] W hsb)
          (shapeCast ⟨2, ![1, N]⟩ bias hrs) (i 0) (i 1))
      = layer hK a b W bias :=
  funext fun i => tileEntry_cut hK hst hsb hrs a b W bias (i 0) (i 1)

end Cert.SplitLinear

end
-- ==== Proof.RefValue.lean ====
/-
  The reference, entry by entry.

  The reference computes whole arrays, one host operation at a time, but each operation's row `r` depends only on
  row `r` of its operands: a matrix product's entry `(r, q)` is the sum along row `r` of the left operand against
  column `q` of the weight, a bias vector is placed as a row and repeated down the rows, the rectifier acts entry by
  entry, and joining two arrays side by side before a product splits that product's sum into the sum over the left
  part's columns against the weight's upper rows plus the sum over the right part's columns against its lower rows.
  So entry `r` of the result is the score of the pair whose four rows are row `r` of the two aggregated arrays and of
  the two node arrays. The aggregated arrays themselves (a gather of skill rows followed by a scatter-add over the
  edges) are never opened: they enter only through their rows.

  The reference adds a graph convolution's bias before the root term; `Score.twoBiasFirst_eq` rebrackets it.
-/
import proofs.«125849_j38362647888477_2_alg».proof.Proof.Gen.ReferenceIdeal.Read
import proofs.«125849_j38362647888477_2_alg».proof.Proof.Score
import proofs.«125849_j38362647888477_2_alg».proof.Proof.LibSplitLinear
import Idealize.ShloMosaic.Lib.ValueIdx
import Idealize.ShloMosaic.Lib.ValueLayout
import Idealize.ShloMosaic.Lib.Pipeline.Value

open scoped BigOperators

noncomputable section

namespace Cert.ReferenceIdeal.RefValue

open Idealize.ShloMosaic Idealize.ShloMosaic.ValueIdx Cert.ReferenceIdeal Cert.ReferenceIdeal.Gen Cert.Score

/-- The host's matrix product at `(p, q)`: the sum along row `p` of the left operand against column `q` of the right. -/
theorem hostDot_apply {A K B : ℕ} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ .f32) (y : FVec Ideal ⟨2, ![K, B]⟩ .f32) (p : Fin A) (q : Fin B) :
    Host.dotGeneral d prec x y (ix2 p q) = ∑ k : Fin K, x (ix2 p k) * y (ix2 k q) :=
  Cert.DotSums.dotGeneral_ix2 d prec .single hlb hln hlc hrb hrn hrc hr hs x y p q

/-- A bias vector placed as a row and repeated down the rows reads, at `(p, q)`, its entry `q`. -/
theorem biasRows_apply {a b : ℕ} (x : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 x) (ix2 p q) = x (ix1 q) :=
  (Cert.BiasRow.down_apply _ h2 p q).trans (Cert.BiasRow.row_apply x h1 0 q)

/-- The weights as the reference holds them: the matrices entry by entry, the biases as vectors, and the first
    perceptron weight cut into the rows that meet the job half and those that meet the resume half of the joined row. -/
def refParams (x7 : (⟨S1536x1536, .f32⟩ : BufTy).Contents (Elt Ideal)) (x8 : (⟨S1536, .f32⟩ : BufTy).Contents (Elt Ideal)) (x9 x10 : (⟨S1536x1536, .f32⟩ : BufTy).Contents (Elt Ideal))
    (x11 : (⟨S1536, .f32⟩ : BufTy).Contents (Elt Ideal)) (x12 : (⟨S1536x1536, .f32⟩ : BufTy).Contents (Elt Ideal)) (x13 : (⟨S3072x512, .f32⟩ : BufTy).Contents (Elt Ideal))
    (x14 : (⟨S512, .f32⟩ : BufTy).Contents (Elt Ideal)) (x15 : (⟨S512x256, .f32⟩ : BufTy).Contents (Elt Ideal)) (x16 : (⟨S256, .f32⟩ : BufTy).Contents (Elt Ideal))
    (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) : Params where
  Wrj := fun k c => x7 (ix2 k c)
  bj  := fun c => x8 (ix1 c)
  Woj := fun k c => x9 (ix2 k c)
  Wrr := fun k c => x10 (ix2 k c)
  br  := fun c => x11 (ix1 c)
  Wor := fun k c => x12 (ix2 k c)
  W1a := fun k c => x13 (ix2 (Cert.SplitLinear.topRow (Ka := 1536) (Kb := 1536) (K := 3072) rfl k) c)
  W1b := fun k c => x13 (ix2 (Cert.SplitLinear.botRow (Ka := 1536) (Kb := 1536) (K := 3072) rfl k) c)
  b1  := fun c => x14 (ix1 c)
  W2  := fun k c => x15 (ix2 k c)
  b2  := fun c => x16 (ix1 c)
  W3  := fun k c => x17 (ix2 k c)
  b3  := fun c => x18 (ix1 c)
  W4  := fun k c => x19 (ix2 k c)
  b4  := fun c => x20 (ix1 c)

variable (x0 : (⟨S50000x1536, .f32⟩ : BufTy).Contents (Elt Ideal)) (x1 x2 : (⟨S4096x1536, .f32⟩ : BufTy).Contents (Elt Ideal))
  (x3 x4 x5 x6 : (⟨S65536, .i32⟩ : BufTy).Contents (Elt Ideal))
  (x7 : (⟨S1536x1536, .f32⟩ : BufTy).Contents (Elt Ideal)) (x8 : (⟨S1536, .f32⟩ : BufTy).Contents (Elt Ideal)) (x9 x10 : (⟨S1536x1536, .f32⟩ : BufTy).Contents (Elt Ideal))
  (x11 : (⟨S1536, .f32⟩ : BufTy).Contents (Elt Ideal)) (x12 : (⟨S1536x1536, .f32⟩ : BufTy).Contents (Elt Ideal)) (x13 : (⟨S3072x512, .f32⟩ : BufTy).Contents (Elt Ideal))
  (x14 : (⟨S512, .f32⟩ : BufTy).Contents (Elt Ideal)) (x15 : (⟨S512x256, .f32⟩ : BufTy).Contents (Elt Ideal)) (x16 : (⟨S256, .f32⟩ : BufTy).Contents (Elt Ideal))
  (x17 : (⟨S256x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal))

/-- The job embedding, row `p`: the graph convolution of row `p` of the aggregated skills and of the job array. -/
theorem job_apply (p : Fin 4096) (q : Fin 1536) :
    Read.val_main_v16 x0 x1 x3 x4 x7 x8 x9 (ix2 p q)
      = two (fun k => Read.val_main_v9 x0 x3 x4 (ix2 p k)) (fun k => x1 (ix2 p k)) (fun k c => x7 (ix2 k c)) (fun k c => x9 (ix2 k c))
          (fun c => x8 (ix1 c)) q := by
  refine Eq.trans ?_ (twoBiasFirst_eq _ _ _ _ _ _)
  unfold Read.val_main_v16 Read.val_main_v15 Read.val_main_v13 Read.val_main_v14 Read.val_main_v12 Read.val_main_v11 Read.val_main_v10
  simp only [maximumf_apply, addf_apply,
    hostDot_apply dot_S4096x1536_S1536x1536_S4096x1536_1_0_0_1_n_n rfl rfl rfl rfl rfl rfl rfl rfl,
    Read.val_main_call0_v0_apply, Read.val_main_call0_cst_apply]
  rw [show broadcastInDim S4096x1536 ![0, 1] bcast_S1x1536_S4096x1536_0_1 (broadcastInDim S1x1536 ![1] bcast_S1536_S1x1536_1 x8) (ix2 p q) = x8 (ix1 q) from biasRows_apply x8 _ _ p q]
  rfl

/-- The resume embedding, row `p`. -/
theorem res_apply (p : Fin 4096) (q : Fin 1536) :
    Read.val_main_v33 x0 x2 x5 x6 x10 x11 x12 (ix2 p q)
      = two (fun k => Read.val_main_v26 x0 x5 x6 (ix2 p k)) (fun k => x2 (ix2 p k)) (fun k c => x10 (ix2 k c)) (fun k c => x12 (ix2 k c))
          (fun c => x11 (ix1 c)) q := by
  refine Eq.trans ?_ (twoBiasFirst_eq _ _ _ _ _ _)
  unfold Read.val_main_v33 Read.val_main_v32 Read.val_main_v30 Read.val_main_v31 Read.val_main_v29 Read.val_main_v28 Read.val_main_v27
  simp only [maximumf_apply, addf_apply,
    hostDot_apply dot_S4096x1536_S1536x1536_S4096x1536_1_0_0_1_n_n rfl rfl rfl rfl rfl rfl rfl rfl,
    Read.val_main_call1_v0_apply, Read.val_main_call1_cst_apply]
  rw [show broadcastInDim S4096x1536 ![0, 1] bcast_S1x1536_S4096x1536_0_1 (broadcastInDim S1x1536 ![1] bcast_S1536_S1x1536_1 x11) (ix2 p q) = x11 (ix1 q) from biasRows_apply x11 _ _ p q]
  rfl

/-- The first hidden layer, row `p`: the joined row against the whole weight is the job half against the weight's
    upper rows plus the resume half against its lower rows. -/
theorem h1_apply (p : Fin 4096) (q : Fin 512) :
    Read.val_main_v39 x0 x1 x2 x3 x4 x5 x6 x7 x8 x9 x10 x11 x12 x13 x14 (ix2 p q) = h1 (refParams x7 x8 x9 x10 x11 x12 x13 x14 x15 x16 x17 x18 x19 x20) (hJob (refParams x7 x8 x9 x10 x11 x12 x13 x14 x15 x16 x17 x18 x19 x20) (fun k => Read.val_main_v9 x0 x3 x4 (ix2 p k)) (fun k => x1 (ix2 p k))) (hRes (refParams x7 x8 x9 x10 x11 x12 x13 x14 x15 x16 x17 x18 x19 x20) (fun k => Read.val_main_v26 x0 x5 x6 (ix2 p k)) (fun k => x2 (ix2 p k))) q := by
  unfold Read.val_main_v39 Read.val_main_v38 Read.val_main_v35 Read.val_main_v34 Read.val_main_v37 Read.val_main_v36
  rw [maximumf_apply, Read.val_main_call2_v0_apply, Read.val_main_call2_cst_apply]
  have hK : 1536 + 1536 = 3072 := rfl
  have hs := Cert.SplitLinear.host_apply hK dot_S4096x3072_S3072x512_S4096x512_1_0_0_1_n_n rfl rfl rfl rfl rfl rfl rfl rfl
    none concatenates_S4096x1536_S4096x1536_S4096x3072_d1 bcast_S512_S1x512_1 bcast_S1x512_S4096x512_0_1
    (Read.val_main_v16 x0 x1 x3 x4 x7 x8 x9) (Read.val_main_v33 x0 x2 x5 x6 x10 x11 x12) x13 x14 p q
  rw [hs]
  unfold Cert.SplitLinear.entry
  simp only [job_apply, res_apply]
  rfl

/-- The second hidden layer, row `p`. -/
theorem h2_apply (p : Fin 4096) (q : Fin 256) :
    Read.val_main_v44 x0 x1 x2 x3 x4 x5 x6 x7 x8 x9 x10 x11 x12 x13 x14 x15 x16 (ix2 p q) = h2 (refParams x7 x8 x9 x10 x11 x12 x13 x14 x15 x16 x17 x18 x19 x20) (h1 (refParams x7 x8 x9 x10 x11 x12 x13 x14 x15 x16 x17 x18 x19 x20) (hJob (refParams x7 x8 x9 x10 x11 x12 x13 x14 x15 x16 x17 x18 x19 x20) (fun k => Read.val_main_v9 x0 x3 x4 (ix2 p k)) (fun k => x1 (ix2 p k))) (hRes (refParams x7 x8 x9 x10 x11 x12 x13 x14 x15 x16 x17 x18 x19 x20) (fun k => Read.val_main_v26 x0 x5 x6 (ix2 p k)) (fun k => x2 (ix2 p k)))) q := by
  unfold Read.val_main_v44 Read.val_main_v43 Read.val_main_v40 Read.val_main_v42 Read.val_main_v41
  simp only [maximumf_apply, addf_apply,
    hostDot_apply dot_S4096x512_S512x256_S4096x256_1_0_0_1_n_n rfl rfl rfl rfl rfl rfl rfl rfl,
    Read.val_main_call3_v0_apply, Read.val_main_call3_cst_apply, h1_apply x0 x1 x2 x3 x4 x5 x6 x7 x8 x9 x10 x11 x12 x13 x14 x15 x16 x17 x18 x19 x20]
  rw [show broadcastInDim S4096x256 ![0, 1] bcast_S1x256_S4096x256_0_1 (broadcastInDim S1x256 ![1] bcast_S256_S1x256_1 x16) (ix2 p q) = x16 (ix1 q) from biasRows_apply x16 _ _ p q]
  rfl

/-- The third hidden layer, row `p`. -/
theorem h3_apply (p : Fin 4096) (q : Fin 64) :
    Read.val_main_v49 x0 x1 x2 x3 x4 x5 x6 x7 x8 x9 x10 x11 x12 x13 x14 x15 x16 x17 x18 (ix2 p q) = h3 (refParams x7 x8 x9 x10 x11 x12 x13 x14 x15 x16 x17 x18 x19 x20) (h2 (refParams x7 x8 x9 x10 x11 x12 x13 x14 x15 x16 x17 x18 x19 x20) (h1 (refParams x7 x8 x9 x10 x11 x12 x13 x14 x15 x16 x17 x18 x19 x20) (hJob (refParams x7 x8 x9 x10 x11 x12 x13 x14 x15 x16 x17 x18 x19 x20) (fun k => Read.val_main_v9 x0 x3 x4 (ix2 p k)) (fun k => x1 (ix2 p k))) (hRes (refParams x7 x8 x9 x10 x11 x12 x13 x14 x15 x16 x17 x18 x19 x20) (fun k => Read.val_main_v26 x0 x5 x6 (ix2 p k)) (fun k => x2 (ix2 p k))))) q := by
  unfold Read.val_main_v49 Read.val_main_v48 Read.val_main_v45 Read.val_main_v47 Read.val_main_v46
  simp only [maximumf_apply, addf_apply,
    hostDot_apply dot_S4096x256_S256x64_S4096x64_1_0_0_1_n_n rfl rfl rfl rfl rfl rfl rfl rfl,
    Read.val_main_call4_v0_apply, Read.val_main_call4_cst_apply, h2_apply x0 x1 x2 x3 x4 x5 x6 x7 x8 x9 x10 x11 x12 x13 x14 x15 x16 x17 x18 x19 x20]
  rw [show broadcastInDim S4096x64 ![0, 1] bcast_S1x64_S4096x64_0_1 (broadcastInDim S1x64 ![1] bcast_S64_S1x64_1 x18) (ix2 p q) = x18 (ix1 q) from biasRows_apply x18 _ _ p q]
  rfl

/-- The [4096, 1] array of scores, row `p`. -/
theorem column_apply (p : Fin 4096) (q : Fin 1) :
    Read.val_main_v53 x0 x1 x2 x3 x4 x5 x6 x7 x8 x9 x10 x11 x12 x13 x14 x15 x16 x17 x18 x19 x20 (ix2 p q)
      = score (refParams x7 x8 x9 x10 x11 x12 x13 x14 x15 x16 x17 x18 x19 x20) (fun k => Read.val_main_v9 x0 x3 x4 (ix2 p k)) (fun k => x1 (ix2 p k)) (fun k => Read.val_main_v26 x0 x5 x6 (ix2 p k)) (fun k => x2 (ix2 p k)) q := by
  unfold Read.val_main_v53 Read.val_main_v50 Read.val_main_v52 Read.val_main_v51
  simp only [addf_apply,
    hostDot_apply dot_S4096x64_S64x1_S4096x1_1_0_0_1_n_n rfl rfl rfl rfl rfl rfl rfl rfl, h3_apply x0 x1 x2 x3 x4 x5 x6 x7 x8 x9 x10 x11 x12 x13 x14 x15 x16 x17 x18 x19 x20]
  rw [show broadcastInDim S4096x1 ![0, 1] bcast_S1x1_S4096x1_0_1 (broadcastInDim S1x1 ![1] bcast_S1_S1x1_1 x20) (ix2 p q) = x20 (ix1 q) from biasRows_apply x20 _ _ p q]
  rfl

/-- THE REFERENCE'S RESULT, entry `r`: the score of the pair whose rows are row `r` of the two aggregated arrays and
    of the two node arrays (the [4096, 1] column recast as a vector keeps entry `(r, 0)` at `r`). -/
theorem result_apply (p : Fin 4096) :
    Read.val_main_v54 x0 x1 x2 x3 x4 x5 x6 x7 x8 x9 x10 x11 x12 x13 x14 x15 x16 x17 x18 x19 x20 (ix1 p)
      = score (refParams x7 x8 x9 x10 x11 x12 x13 x14 x15 x16 x17 x18 x19 x20) (fun k => Read.val_main_v9 x0 x3 x4 (ix2 p k)) (fun k => x1 (ix2 p k)) (fun k => Read.val_main_v26 x0 x5 x6 (ix2 p k)) (fun k => x2 (ix2 p k)) 0 := by
  rw [Read.val_main_v54_apply]
  have e : Read.idx_main_v54 (ix1 p) = ix2 p (0 : Fin 1) :=
    funext fun a => Fin.ext (by match a with | ⟨0, _⟩ => exact Nat.div_one _ | ⟨1, _⟩ => rfl)
  rw [e]
  exact column_apply x0 x1 x2 x3 x4 x5 x6 x7 x8 x9 x10 x11 x12 x13 x14 x15 x16 x17 x18 x19 x20 p 0

/-- The scores of all 4096 pairs as one function of the program's arguments: entry `r` is the score of the pair whose
    rows are row `r` of the two aggregated arrays and of the two node arrays. -/
def pairScores : S4096.Idx → EReal := fun i =>
  score (refParams x7 x8 x9 x10 x11 x12 x13 x14 x15 x16 x17 x18 x19 x20) (fun k => Read.val_main_v9 x0 x3 x4 (ix2 (i 0) k)) (fun k => x1 (ix2 (i 0) k)) (fun k => Read.val_main_v26 x0 x5 x6 (ix2 (i 0) k)) (fun k => x2 (ix2 (i 0) k)) 0

/-- THE REFERENCE'S RESULT is `pairScores` of its arguments. -/
theorem result_eq : Read.val_main_v54 x0 x1 x2 x3 x4 x5 x6 x7 x8 x9 x10 x11 x12 x13 x14 x15 x16 x17 x18 x19 x20 = pairScores x0 x1 x2 x3 x4 x5 x6 x7 x8 x9 x10 x11 x12 x13 x14 x15 x16 x17 x18 x19 x20 :=
  funext fun i => by
    obtain ⟨p, rfl⟩ : ∃ p : Fin 4096, i = ix1 p := ⟨i 0, eq_ix1 i⟩
    exact result_apply x0 x1 x2 x3 x4 x5 x6 x7 x8 x9 x10 x11 x12 x13 x14 x15 x16 x17 x18 x19 x20 p

end Cert.ReferenceIdeal.RefValue

end
-- ==== Proof.KernelValue.lean ====
/-
  The kernel's result as a function of the program's arguments.

  `Scores.final` gives the [4096, 1] output array as `rowScores` of the arrays the region finds, and `Operands` says
  what those arrays are. Put together: the weights a grid step holds are the reference's weights entry by entry (a
  change of float format is the identity on the extended reals; a bias recast as a [1, N] row keeps entry `q` at
  `(0, q)`; the upper and lower 1536 rows cut from the first perceptron weight are its rows `k` and `1536 + k`), and the
  row-tiled arrays are the reference's aggregated arrays and the node arrays under a change of format. The one host
  operation after the region recasts the [4096, 1] column as a vector, entry `(r, 0)` at `r`. So the program's result
  is `pairScores` of its arguments: the function the reference computes.
-/
import proofs.«125849_j38362647888477_2_alg».proof.Proof.ScoreArray
import proofs.«125849_j38362647888477_2_alg».proof.Proof.Operands
import proofs.«125849_j38362647888477_2_alg».proof.Proof.RefValue
import Idealize.ShloMosaic.Lib.StableHlo.Run
import Idealize.ShloMosaic.Lib.ValueLayout

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.Score
open Cert.ReferenceIdeal.RefValue (pairScores refParams)

variable (m : (ℓ : Loc nD τ sig) → Buf (Elt Ideal) ℓ) (ρ : Dev nD → PrngReg)

/-- Two presentations of the weights are equal when they agree field by field. -/
theorem params_ext (P Q : Params) (hWrj : P.Wrj = Q.Wrj) (hbj : P.bj = Q.bj) (hWoj : P.Woj = Q.Woj) (hWrr : P.Wrr = Q.Wrr) (hbr : P.br = Q.br) (hWor : P.Wor = Q.Wor) (hW1a : P.W1a = Q.W1a) (hW1b : P.W1b = Q.W1b) (hb1 : P.b1 = Q.b1) (hW2 : P.W2 = Q.W2) (hb2 : P.b2 = Q.b2) (hW3 : P.W3 = Q.W3) (hb3 : P.b3 = Q.b3) (hW4 : P.W4 = Q.W4) (hb4 : P.b4 = Q.b4) : P = Q := by
  cases P; cases Q
  simp only [Params.mk.injEq]
  exact ⟨hWrj, hbj, hWoj, hWrr, hbr, hWor, hW1a, hW1b, hb1, hW2, hb2, hW3, hb3, hW4, hb4⟩

/-- Over any arrays: if the region's operand arrays are the host operations of arguments `x0 … x20` that `Operands`
    states, then row `r` of `rowScores` of them is entry `r` of `pairScores` of the arguments. -/
theorem rowScores_of_operands (a0 : Vec Ideal S4096x1536 .bf16) (a1 : Vec Ideal S4096x1536 .bf16) (a2 : Vec Ideal S1536x1536 .bf16) (a3 : Vec Ideal S1x1536 .f32) (a4 : Vec Ideal S1536x1536 .bf16) (a5 : Vec Ideal S4096x1536 .bf16) (a6 : Vec Ideal S4096x1536 .bf16) (a7 : Vec Ideal S1536x1536 .bf16) (a8 : Vec Ideal S1x1536 .f32) (a9 : Vec Ideal S1536x1536 .bf16) (a10 : Vec Ideal S1536x512 .bf16) (a11 : Vec Ideal S1536x512 .bf16) (a12 : Vec Ideal S1x512 .f32) (a13 : Vec Ideal S512x256 .bf16) (a14 : Vec Ideal S1x256 .f32) (a15 : Vec Ideal S256x64 .bf16) (a16 : Vec Ideal S1x64 .f32) (a17 : Vec Ideal S64x1 .bf16) (a18 : Vec Ideal S1x1 .f32)
    (x0 : FVec Ideal S50000x1536 .f32) (x1 : FVec Ideal S4096x1536 .f32) (x2 : FVec Ideal S4096x1536 .f32) (x3 : S65536.Idx → BitVec 32) (x4 : S65536.Idx → BitVec 32) (x5 : S65536.Idx → BitVec 32) (x6 : S65536.Idx → BitVec 32) (x7 : FVec Ideal S1536x1536 .f32) (x8 : FVec Ideal S1536 .f32) (x9 : FVec Ideal S1536x1536 .f32) (x10 : FVec Ideal S1536x1536 .f32) (x11 : FVec Ideal S1536 .f32) (x12 : FVec Ideal S1536x1536 .f32) (x13 : FVec Ideal S3072x512 .f32) (x14 : FVec Ideal S512 .f32) (x15 : FVec Ideal S512x256 .f32) (x16 : FVec Ideal S256 .f32) (x17 : FVec Ideal S256x64 .f32) (x18 : FVec Ideal S64 .f32) (x19 : FVec Ideal S64x1 .f32) (x20 : FVec Ideal S1 .f32)
    (e0 : @Eq (S4096x1536.Idx → EReal) a0 (truncf .bf16 (Cert.ReferenceIdeal.Read.val_main_v9 (F := Ideal) x0 x3 x4) bitsLt_bf16_f32 : FVec Ideal S4096x1536 .bf16))
    (e1 : @Eq (S4096x1536.Idx → EReal) a1 (truncf .bf16 x1 bitsLt_bf16_f32 : FVec Ideal S4096x1536 .bf16))
    (e2 : @Eq (S1536x1536.Idx → EReal) a2 (truncf .bf16 x7 bitsLt_bf16_f32 : FVec Ideal S1536x1536 .bf16))
    (e3 : @Eq (S1x1536.Idx → EReal) a3 (shapeCast S1x1536 x8 shapeCasts_S1536_S1x1536 : FVec Ideal S1x1536 .f32))
    (e4 : @Eq (S1536x1536.Idx → EReal) a4 (truncf .bf16 x9 bitsLt_bf16_f32 : FVec Ideal S1536x1536 .bf16))
    (e5 : @Eq (S4096x1536.Idx → EReal) a5 (truncf .bf16 (Cert.ReferenceIdeal.Read.val_main_v26 (F := Ideal) x0 x5 x6) bitsLt_bf16_f32 : FVec Ideal S4096x1536 .bf16))
    (e6 : @Eq (S4096x1536.Idx → EReal) a6 (truncf .bf16 x2 bitsLt_bf16_f32 : FVec Ideal S4096x1536 .bf16))
    (e7 : @Eq (S1536x1536.Idx → EReal) a7 (truncf .bf16 x10 bitsLt_bf16_f32 : FVec Ideal S1536x1536 .bf16))
    (e8 : @Eq (S1x1536.Idx → EReal) a8 (shapeCast S1x1536 x11 shapeCasts_S1536_S1x1536 : FVec Ideal S1x1536 .f32))
    (e9 : @Eq (S1536x1536.Idx → EReal) a9 (truncf .bf16 x12 bitsLt_bf16_f32 : FVec Ideal S1536x1536 .bf16))
    (e10 : @Eq (S1536x512.Idx → EReal) a10 (truncf .bf16 (extractStridedSlice S1536x512 ![0, 0] x13 slices_S3072x512_S1536x512_0_0) bitsLt_bf16_f32 : FVec Ideal S1536x512 .bf16))
    (e11 : @Eq (S1536x512.Idx → EReal) a11 (truncf .bf16 (extractStridedSlice S1536x512 ![1536, 0] x13 slices_S3072x512_S1536x512_1536_0) bitsLt_bf16_f32 : FVec Ideal S1536x512 .bf16))
    (e12 : @Eq (S1x512.Idx → EReal) a12 (shapeCast S1x512 x14 shapeCasts_S512_S1x512 : FVec Ideal S1x512 .f32))
    (e13 : @Eq (S512x256.Idx → EReal) a13 (truncf .bf16 x15 bitsLt_bf16_f32 : FVec Ideal S512x256 .bf16))
    (e14 : @Eq (S1x256.Idx → EReal) a14 (shapeCast S1x256 x16 shapeCasts_S256_S1x256 : FVec Ideal S1x256 .f32))
    (e15 : @Eq (S256x64.Idx → EReal) a15 (truncf .bf16 x17 bitsLt_bf16_f32 : FVec Ideal S256x64 .bf16))
    (e16 : @Eq (S1x64.Idx → EReal) a16 (shapeCast S1x64 x18 shapeCasts_S64_S1x64 : FVec Ideal S1x64 .f32))
    (e17 : @Eq (S64x1.Idx → EReal) a17 (truncf .bf16 x19 bitsLt_bf16_f32 : FVec Ideal S64x1 .bf16))
    (e18 : @Eq (S1x1.Idx → EReal) a18 (shapeCast S1x1 x20 shapeCasts_S1_S1x1 : FVec Ideal S1x1 .f32))
    (r : Fin 4096) :
    Scores.rowScores a0 a1 a2 a3 a4 a5 a6 a7 a8 a9 a10 a11 a12 a13 a14 a15 a16 a17 a18 (ix2 r (0 : Fin 1)) = pairScores x0 x1 x2 x3 x4 x5 x6 x7 x8 x9 x10 x11 x12 x13 x14 x15 x16 x17 x18 x19 x20 (ix1 r) := by
  subst e0 e1 e2 e3 e4 e5 e6 e7 e8 e9 e10 e11 e12 e13 e14 e15 e16 e17 e18
  unfold Scores.rowScores pairScores
  have hP : Tile.tileParams
        (truncf .bf16 x7 bitsLt_bf16_f32 : FVec Ideal S1536x1536 .bf16)
        (shapeCast S1x1536 x8 shapeCasts_S1536_S1x1536 : FVec Ideal S1x1536 .f32)
        (truncf .bf16 x9 bitsLt_bf16_f32 : FVec Ideal S1536x1536 .bf16)
        (truncf .bf16 x10 bitsLt_bf16_f32 : FVec Ideal S1536x1536 .bf16)
        (shapeCast S1x1536 x11 shapeCasts_S1536_S1x1536 : FVec Ideal S1x1536 .f32)
        (truncf .bf16 x12 bitsLt_bf16_f32 : FVec Ideal S1536x1536 .bf16)
        (truncf .bf16 (extractStridedSlice S1536x512 ![0, 0] x13 slices_S3072x512_S1536x512_0_0) bitsLt_bf16_f32 : FVec Ideal S1536x512 .bf16)
        (truncf .bf16 (extractStridedSlice S1536x512 ![1536, 0] x13 slices_S3072x512_S1536x512_1536_0) bitsLt_bf16_f32 : FVec Ideal S1536x512 .bf16)
        (shapeCast S1x512 x14 shapeCasts_S512_S1x512 : FVec Ideal S1x512 .f32)
        (truncf .bf16 x15 bitsLt_bf16_f32 : FVec Ideal S512x256 .bf16)
        (shapeCast S1x256 x16 shapeCasts_S256_S1x256 : FVec Ideal S1x256 .f32)
        (truncf .bf16 x17 bitsLt_bf16_f32 : FVec Ideal S256x64 .bf16)
        (shapeCast S1x64 x18 shapeCasts_S64_S1x64 : FVec Ideal S1x64 .f32)
        (truncf .bf16 x19 bitsLt_bf16_f32 : FVec Ideal S64x1 .bf16)
        (shapeCast S1x1 x20 shapeCasts_S1_S1x1 : FVec Ideal S1x1 .f32)
      = refParams x7 x8 x9 x10 x11 x12 x13 x14 x15 x16 x17 x18 x19 x20 := by
    refine params_ext _ _ rfl ?_ rfl rfl ?_ rfl ?_ ?_ ?_ rfl ?_ rfl ?_ rfl ?_
    · exact funext fun q => shapeCast_a_1a_apply _ shapeCasts_S1536_S1x1536 0 q
    · exact funext fun q => shapeCast_a_1a_apply _ shapeCasts_S1536_S1x1536 0 q
    · exact funext fun k => funext fun q => slice2_axis0_apply 0 _ slices_S3072x512_S1536x512_0_0 k q _ (by show k.val = 0 + k.val; omega)
    · exact funext fun k => funext fun q => slice2_axis0_apply 1536 _ slices_S3072x512_S1536x512_1536_0 k q _ rfl
    · exact funext fun q => shapeCast_a_1a_apply _ shapeCasts_S512_S1x512 0 q
    · exact funext fun q => shapeCast_a_1a_apply _ shapeCasts_S256_S1x256 0 q
    · exact funext fun q => shapeCast_a_1a_apply _ shapeCasts_S64_S1x64 0 q
    · exact funext fun q => shapeCast_a_1a_apply _ shapeCasts_S1_S1x1 0 q
  rw [hP]
  rfl

/-- ROW `r` OF THE OUTPUT ARRAY is entry `r` of `pairScores` of the program's arguments. -/
theorem rowScores_apply (c : Dev nD) (r : Fin 4096) :
    Scores.rowScores (V m c main_v10) (V m c main_v22) (V m c main_v24) (V m c main_v28) (V m c main_v25) (V m c main_v21) (V m c main_v23) (V m c main_v26) (V m c main_v29) (V m c main_v27) (V m c main_v31) (V m c main_v33) (V m c main_v37) (V m c main_v34) (V m c main_v38) (V m c main_v35) (V m c main_v39) (V m c main_v36) (V m c main_v40) (ix2 r (0 : Fin 1))
      = pairScores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (ix1 r) :=
  rowScores_of_operands (V m c main_v10) (V m c main_v22) (V m c main_v24) (V m c main_v28) (V m c main_v25) (V m c main_v21) (V m c main_v23) (V m c main_v26) (V m c main_v29) (V m c main_v27) (V m c main_v31) (V m c main_v33) (V m c main_v37) (V m c main_v34) (V m c main_v38) (V m c main_v35) (V m c main_v39) (V m c main_v36) (V m c main_v40)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
    (Operands.at_main_v10 m c) (Operands.at_main_v22 m c) (Operands.at_main_v24 m c) (Operands.at_main_v28 m c) (Operands.at_main_v25 m c) (Operands.at_main_v21 m c) (Operands.at_main_v23 m c) (Operands.at_main_v26 m c) (Operands.at_main_v29 m c) (Operands.at_main_v27 m c) (Operands.at_main_v31 m c) (Operands.at_main_v33 m c) (Operands.at_main_v37 m c) (Operands.at_main_v34 m c) (Operands.at_main_v38 m c) (Operands.at_main_v35 m c) (Operands.at_main_v39 m c) (Operands.at_main_v36 m c) (Operands.at_main_v40 m c) r

/-- THE PROGRAM'S RESULT, after the reshape that follows the region, is `pairScores` of its arguments. -/
theorem result_eq (c : Dev nD) :
    Pipeline.afterTail₀ cfgs (dats m) 0 (V0 m) [hostOps1] c main_v42
      = pairScores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  unfold Pipeline.afterTail₀
  show StableHlo.after hostOps1 _ (Proc.devRef .tc main_v42) = _
  after_results
  have hA : Pipeline.withArrays (cfgs 0).spec c (V0 m c) (fun w => (dats m 0 c).arrAt w (cfgs 0).N) (Proc.devRef .tc main_v41)
      = Scores.rowScores (V m c main_v10) (V m c main_v22) (V m c main_v24) (V m c main_v28) (V m c main_v25) (V m c main_v21) (V m c main_v23) (V m c main_v26) (V m c main_v29) (V m c main_v27) (V m c main_v31) (V m c main_v33) (V m c main_v37) (V m c main_v34) (V m c main_v38) (V m c main_v35) (V m c main_v39) (V m c main_v36) (V m c main_v40) :=
    (Pipeline.withArrays_arr spec0 launch0.win.arr_inj c _ _ 19).trans (Scores.final m c)
  funext i
  obtain ⟨r, rfl⟩ : ∃ r : Fin 4096, i = ix1 r := ⟨i 0, eq_ix1 i⟩
  show shapeCast S4096 (Pipeline.withArrays (cfgs 0).spec c (V0 m c) (fun w => (dats m 0 c).arrAt w (cfgs 0).N) (Proc.devRef .tc main_v41))
      shapeCasts_S4096x1_S4096 (ix1 r) = _
  rw [hA]
  exact (shapeCast_apply (Scores.rowScores (V m c main_v10) (V m c main_v22) (V m c main_v24) (V m c main_v28) (V m c main_v25) (V m c main_v21) (V m c main_v23) (V m c main_v26) (V m c main_v29) (V m c main_v27) (V m c main_v31) (V m c main_v33) (V m c main_v37) (V m c main_v34) (V m c main_v38) (V m c main_v35) (V m c main_v39) (V m c main_v36) (V m c main_v40)) shapeCasts_S4096x1_S4096 (ix1 r) (ix2 r (0 : Fin 1))
    (by rewrite [Shape.rowMajor_val_two, Shape.rowMajor_val_one]; show r.val * 1 + 0 = r.val; omega)).trans
    (rowScores_apply m c r)

/-- THE KERNEL'S RUN, re-posted: the result holds `pairScores` of the arguments, and the arguments end unchanged. -/
theorem run : θ_run defs (onTc (τ := τ) (main (F := Ideal))) ⟨m, fun _ => 0, ρ⟩ (fun r => ∀ c : Dev nD,
      r.2.mem ((c.tc : Thread nD τ).loc main_v42) = pairScores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨
      ((h c).2 main_v42 (Pipeline.mem_restRefs_of main_v42 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c)⟩)
    (run_main m ρ)

end Cert.KernelIdeal.Result

end
-- ==== Proof.RefRun.lean ====
/-
  The reference's run, re-posted at the pairs' scores.

  The reference is a straight line of host operations, so its run ends with its result buffer at the operations'
  composed term of the arguments; that term is the last stage, and the last stage is `pairScores` of the arguments
  (`RefValue.result_eq`). `pairScores` of equal arguments are equal.
-/
import proofs.«125849_j38362647888477_2_alg».proof.Proof.RefValue
import proofs.«125849_j38362647888477_2_alg».proof.Proof.Gen.ReferenceIdeal.Run
import proofs.«125849_j38362647888477_2_alg».proof.Proof.Gen.ReferenceIdeal.Read

noncomputable section

namespace Cert.ReferenceIdeal.RefRun

open Idealize.ShloMosaic Idealize.ShloMosaic.TcCoe Idealize.SL.Sem Cert.ReferenceIdeal Cert.ReferenceIdeal.Gen
open Cert.ReferenceIdeal.RefValue (pairScores)

/-- `pairScores` of arguments equal one by one are equal. -/
theorem pairScores_congr
    (a0 b0 : (⟨S50000x1536, .f32⟩ : BufTy).Contents (Elt Ideal))
    (a1 b1 : (⟨S4096x1536, .f32⟩ : BufTy).Contents (Elt Ideal))
    (a2 b2 : (⟨S4096x1536, .f32⟩ : BufTy).Contents (Elt Ideal))
    (a3 b3 : (⟨S65536, .i32⟩ : BufTy).Contents (Elt Ideal))
    (a4 b4 : (⟨S65536, .i32⟩ : BufTy).Contents (Elt Ideal))
    (a5 b5 : (⟨S65536, .i32⟩ : BufTy).Contents (Elt Ideal))
    (a6 b6 : (⟨S65536, .i32⟩ : BufTy).Contents (Elt Ideal))
    (a7 b7 : (⟨S1536x1536, .f32⟩ : BufTy).Contents (Elt Ideal))
    (a8 b8 : (⟨S1536, .f32⟩ : BufTy).Contents (Elt Ideal))
    (a9 b9 : (⟨S1536x1536, .f32⟩ : BufTy).Contents (Elt Ideal))
    (a10 b10 : (⟨S1536x1536, .f32⟩ : BufTy).Contents (Elt Ideal))
    (a11 b11 : (⟨S1536, .f32⟩ : BufTy).Contents (Elt Ideal))
    (a12 b12 : (⟨S1536x1536, .f32⟩ : BufTy).Contents (Elt Ideal))
    (a13 b13 : (⟨S3072x512, .f32⟩ : BufTy).Contents (Elt Ideal))
    (a14 b14 : (⟨S512, .f32⟩ : BufTy).Contents (Elt Ideal))
    (a15 b15 : (⟨S512x256, .f32⟩ : BufTy).Contents (Elt Ideal))
    (a16 b16 : (⟨S256, .f32⟩ : BufTy).Contents (Elt Ideal))
    (a17 b17 : (⟨S256x64, .f32⟩ : BufTy).Contents (Elt Ideal))
    (a18 b18 : (⟨S64, .f32⟩ : BufTy).Contents (Elt Ideal))
    (a19 b19 : (⟨S64x1, .f32⟩ : BufTy).Contents (Elt Ideal))
    (a20 b20 : (⟨S1, .f32⟩ : BufTy).Contents (Elt Ideal))
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    pairScores a0 a1 a2 a3 a4 a5 a6 a7 a8 a9 a10 a11 a12 a13 a14 a15 a16 a17 a18 a19 a20 = pairScores b0 b1 b2 b3 b4 b5 b6 b7 b8 b9 b10 b11 b12 b13 b14 b15 b16 b17 b18 b19 b20 := by
  subst h0 h1 h2 h3 h4 h5 h6 h7 h8 h9 h10 h11 h12 h13 h14 h15 h16 h17 h18 h19 h20
  rfl

variable (m : (ℓ : Loc nD τ sig) → Buf (Elt Ideal) ℓ) (ρ : Dev nD → PrngReg)

/-- THE REFERENCE'S RUN: the result holds `pairScores` of the arguments, and the arguments end unchanged. -/
theorem run : θ_run defs (onTc (τ := τ) (main (F := Ideal))) ⟨m, fun _ => 0, ρ⟩ (fun r => ∀ c : Dev nD,
      r.2.mem ((c.tc : Thread nD τ).loc main_v54) = pairScores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c).1.trans
      ((Cert.ReferenceIdeal.Read.val_main_v54_eq _ _ _ _ _ _ _ _ _ _ _ _ _ _ _ _ _ _ _ _ _).trans (Cert.ReferenceIdeal.RefValue.result_eq _ _ _ _ _ _ _ _ _ _ _ _ _ _ _ _ _ _ _ _ _)), (h c).2⟩)
    (Cert.ReferenceIdeal.Value.run (F := Ideal) m ρ)

end Cert.ReferenceIdeal.RefRun

end
-- ==== Proof.lean ====
/-
  The certificate of the fused GraphConv + perceptron kernel against its reference.

  Both programs score 4096 (job, resume) pairs. For pair `r` they take row `r` of two aggregated-skill arrays (skill rows
  gathered by the edges' sources and scatter-added into the rows the edges' targets name; both programs form them by the
  same host operations) and row `r` of the job and resume arrays; pass each side through a graph convolution
  relu(agg·W_rel + x·W_root + b); lay the two embeddings side by side; and apply four affine layers, the first three
  rectified. The kernel tiles the 4096 rows into 32 blocks of 128, multiplies in a narrower float format, adds a
  convolution's bias after the root term where the reference adds it before, and multiplies the two embeddings against
  the upper and lower halves of the first perceptron weight where the reference multiplies the joined row against the
  whole weight.

  On the extended reals none of that changes the result: a change of float format is the identity; the rows are
  independent, so a block of rows of the result is the result of a block of rows; addition is commutative and
  associative; and a sum over 3072 columns is the sum over the first 1536 plus the sum over the last 1536. Nothing
  is assumed finite, so the precondition is never opened. `Score.lean` states the score of one pair; `TileValue.lean`
  reads one grid step's block; `ScoreArray.lean` assembles the 32 blocks; `Operands.lean` and `KernelValue.lean` read the
  host operations around the region; `RefValue.lean` reads the reference and `RefRun.lean` re-posts its run; here the five claims are put together.
-/
import proofs.«125849_j38362647888477_2_alg».proof.Defs
import proofs.«125849_j38362647888477_2_alg».proof.Proof.KernelValue
import proofs.«125849_j38362647888477_2_alg».proof.Proof.RefValue
import proofs.«125849_j38362647888477_2_alg».proof.Proof.RefRun
import proofs.«125849_j38362647888477_2_alg».proof.Proof.Gen.Kernel
import proofs.«125849_j38362647888477_2_alg».proof.Proof.Gen.Kernel.Skeleton
import proofs.«125849_j38362647888477_2_alg».proof.Proof.Gen.Kernel.Launch
import proofs.«125849_j38362647888477_2_alg».proof.Proof.Gen.Kernel.Points
import proofs.«125849_j38362647888477_2_alg».proof.Proof.Gen.Kernel.Frame
import proofs.«125849_j38362647888477_2_alg».proof.Proof.Gen.KernelIdeal
import proofs.«125849_j38362647888477_2_alg».proof.Proof.Gen.KernelIdeal.Skeleton
import proofs.«125849_j38362647888477_2_alg».proof.Proof.Gen.KernelIdeal.Launch
import proofs.«125849_j38362647888477_2_alg».proof.Proof.Gen.KernelIdeal.Points
import proofs.«125849_j38362647888477_2_alg».proof.Proof.Gen.KernelIdeal.Frame
import proofs.«125849_j38362647888477_2_alg».proof.Proof.Gen.ReferenceIdeal
import proofs.«125849_j38362647888477_2_alg».proof.Proof.Gen.Pre_finite_inputs
import proofs.«125849_j38362647888477_2_alg».proof.Proof.Gen.ReferenceIdeal.Run
import proofs.«125849_j38362647888477_2_alg».proof.Proof.Gen.ReferenceIdeal.Read
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end holding `pairScores` of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11, h12, h13, h14, h15, h16, h17, h18, h19, h20⟩ := hagree c
  exact Cert.ReferenceIdeal.RefRun.pairScores_congr _ _ _ _ _ _ _ _ _ _ _ _ _ _ _ _ _ _ _ _ _ _ _ _ _ _ _ _ _ _ _ _ _ _ _ _ _ _ _ _ _ _
    h0 h1 h2 h3 h4 h5 h6 h7 h8 h9 h10 h11 h12 h13 h14 h15 h16 h17 h18 h19 h20

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
